-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x12 : Shape := ⟨2, ![200000, 12]⟩
abbrev S2x3200000 : Shape := ⟨2, ![2, 3200000]⟩
abbrev S12x64 : Shape := ⟨2, ![12, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S200000x12 : S_.BroadcastsInDim S200000x12 (![] : Fin 0 → Fin S200000x12.rank)
  reducesTo_S200000x12_S_d0_1 : S200000x12.ReducesTo [0, 1] S_
  h_S_ : 0 < S_.numel
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32x2 .f32) (main_arg9 : FVec F S2 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x32 .f32) (main_arg6 : FVec F S32 .f32) (main_arg7 : FVec F S64x32 .f32) (main_arg8 : FVec F S32x2 .f32) (main_arg9 : FVec F S2 .f32) (main_v13 : IVec S_ 1) (main_v16 : IVec S12x64 1) : IVec S_ 1 :=
  let main_c_5 : IVec S_ 1 := constantI S_ 1 1#1
  let main_v17 : IVec S_ 1 := (fun x v => Host.reduce IntOp.andi x v reducesTo_S12x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_v33

def fn {F : FTy → Type} [FloatOps F] (main_arg0 : FVec F S200000x12 .f32) (main_arg1 : IVec S2x3200000 32) (main_arg2 : FVec F S12x64 .f32) (main_arg3 : FVec F S64 .f32) (main_arg4 : FVec F S12x64 .f32) (main_arg5 : FVec F S64x32 .f32) (main_arg6 : FVec F S32 .f32) (main_arg7 : FVec F S64x32 .f32) (main_arg8 : FVec F S32x2 .f32) (main_arg9 : FVec F S2 .f32) : IVec S_ 1 :=
  let main_v0 : FVec F S200000x12 .f32 := Host.absf main_arg0
  let main_cst : FVec F S_ .f32 := constant S_ .f32 0x7F800000#32
  let main_v1 : FVec F S200000x12 .f32 := broadcastInDim S200000x12 ![] bcast_S_S200000x12 main_cst
  let main_v2 : IVec S200000x12 1 := cmpf .olt main_v0 main_v1
  let main_c : IVec S_ 1 := constantI S_ 1 1#1
  let main_v3 : IVec S_ 1 := (fun x v => Host.reduce IntOp.andi x v reducesTo_S200000x12_S_d0_1 h_S_) main_v2 main_c
  let main_v4 : FVec F S12x64 .f32 := Host.absf main_arg2
  let main_cst_0 : FVec F S_ .f32 := constant S_ .f32 0x7F800000#32
  let main_v5 : FVec F S12x64 .f32 := broadcastInDim S12x64 ![] bcast_S_S12x64 main_cst_0
  let main_v6 : IVec S12x64 1 := cmpf .olt main_v4 main_v5
  let main_c_1 : IVec S_ 1 := constantI S_ 1 1#1
  let main_v7 : IVec S_ 1 := (fun x v => Host.reduce IntOp.andi x v reducesTo_S12x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S12x64 .f32 := Host.absf main_arg4
  let main_cst_4 : FVec F S_ .f32 := constant S_ .f32 0x7F800000#32
  let main_v15 : FVec F S12x64 .f32 := broadcastInDim S12x64 ![] bcast_S_S12x64 main_cst_4
  let main_v16 : IVec S12x64 1 := cmpf .olt main_v14 main_v15
  fn_part1 (F := F) main_arg5 main_arg6 main_arg7 main_arg8 main_arg9 main_v13 main_v16
-- ==== Kernel.lean ====
abbrev S200000x12 : Shape := ⟨2, ![200000, 12]⟩
abbrev S2x3200000 : Shape := ⟨2, ![2, 3200000]⟩
abbrev S12x64 : Shape := ⟨2, ![12, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x12 : Shape := ⟨2, ![3200000, 12]⟩
abbrev S3200000x13 : Shape := ⟨2, ![3200000, 13]⟩
abbrev S200000x13 : Shape := ⟨2, ![200000, 13]⟩
abbrev S200000x1 : Shape := ⟨2, ![200000, 1]⟩
abbrev S1x64 : Shape := ⟨2, ![1, 64]⟩
abbrev S200000x64 : Shape := ⟨2, ![200000, 64]⟩
abbrev S200000x32 : Shape := ⟨2, ![200000, 32]⟩
abbrev S4000x12 : Shape := ⟨2, ![4000, 12]⟩
abbrev S4000x1 : Shape := ⟨2, ![4000, 1]⟩
abbrev S4000x64 : Shape := ⟨2, ![4000, 64]⟩
abbrev S4000x32 : Shape := ⟨2, ![4000, 32]⟩
abbrev S3200000x32 : Shape := ⟨2, ![3200000, 32]⟩
abbrev S1x32 : Shape := ⟨2, ![1, 32]⟩
abbrev S1x2 : Shape := ⟨2, ![1, 2]⟩
abbrev S200000x2 : Shape := ⟨2, ![200000, 2]⟩
abbrev S4000x2 : Shape := ⟨2, ![4000, 2]⟩

abbrev nBuf : Space → Nat
  | .hbm => 57
  | .vmem => 26
  | .smem => 0
  | _ => 0

abbrev bufTy : (tb : Table) → Fin (tcTables nBuf tb) → BufTy
  | .hbm, ⟨0, _⟩ => ⟨S200000x12, .f32⟩
  | .hbm, ⟨1, _⟩ => ⟨S2x3200000, .i32⟩
  | .hbm, ⟨2, _⟩ => ⟨S12x64, .f32⟩
  | .hbm, ⟨3, _⟩ => ⟨S64, .f32⟩
  | .hbm, ⟨4, _⟩ => ⟨S12x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x2, .f32⟩
  | .hbm, ⟨9, _⟩ => ⟨S2, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x12, .f32⟩
  | .hbm, ⟨23, _⟩ => ⟨S_, .f32⟩
  | .hbm, ⟨24, _⟩ => ⟨S3200000x1, .f32⟩
  | .hbm, ⟨25, _⟩ => ⟨S3200000x13, .f32⟩
  | .hbm, ⟨26, _⟩ => ⟨S_, .f32⟩
  | .hbm, ⟨27, _⟩ => ⟨S200000x13, .f32⟩
  | .hbm, ⟨28, _⟩ => ⟨S3200000x1, .i32⟩
  | .hbm, ⟨29, _⟩ => ⟨S200000x13, .f32⟩
  | .hbm, ⟨30, _⟩ => ⟨S200000x12, .f32⟩
  | .hbm, ⟨31, _⟩ => ⟨S200000x1, .f32⟩
  | .hbm, ⟨32, _⟩ => ⟨S_, .f32⟩
  | .hbm, ⟨33, _⟩ => ⟨S200000x1, .f32⟩
  | .hbm, ⟨34, _⟩ => ⟨S200000x1, .f32⟩
  | .hbm, ⟨35, _⟩ => ⟨S_, .f32⟩
  | .hbm, ⟨36, _⟩ => ⟨S200000x1, .f32⟩
  | .hbm, ⟨37, _⟩ => ⟨S200000x1, .f32⟩
  | .hbm, ⟨38, _⟩ => ⟨S1x64, .f32⟩
  | .hbm, ⟨39, _⟩ => ⟨S200000x64, .f32⟩
  | .hbm, ⟨40, _⟩ => ⟨S200000x32, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x32, .f32⟩
  | .hbm, ⟨50, _⟩ => ⟨S_, .f32⟩
  | .hbm, ⟨51, _⟩ => ⟨S200000x32, .f32⟩
  | .hbm, ⟨52, _⟩ => ⟨S3200000x1, .i32⟩
  | .hbm, ⟨53, _⟩ => ⟨S200000x32, .f32⟩
  | .hbm, ⟨54, _⟩ => ⟨S1x32, .f32⟩
  | .hbm, ⟨55, _⟩ => ⟨S1x2, .f32⟩
  | .hbm, ⟨56, _⟩ => ⟨S200000x2, .f32⟩
  | .local _ .vmem, ⟨0, _⟩ => ⟨S4000x12, .f32⟩
  | .local _ .vmem, ⟨1, _⟩ => ⟨S4000x12, .f32⟩
  | .local _ .vmem, ⟨2, _⟩ => ⟨S4000x1, .f32⟩
  | .local _ .vmem, ⟨3, _⟩ => ⟨S4000x1, .f32⟩
  | .local _ .vmem, ⟨4, _⟩ => ⟨S4000x12, .f32⟩
  | .local _ .vmem, ⟨5, _⟩ => ⟨S4000x12, .f32⟩
  | .local _ .vmem, ⟨6, _⟩ => ⟨S12x64, .f32⟩
  | .local _ .vmem, ⟨7, _⟩ => ⟨S1x64, .f32⟩
  | .local _ .vmem, ⟨8, _⟩ => ⟨S12x64, .f32⟩
  | .local _ .vmem, ⟨9, _⟩ => ⟨S64x32, .f32⟩
  | .local _ .vmem, ⟨10, _⟩ => ⟨S4000x64, .f32⟩
  | .local _ .vmem, ⟨11, _⟩ => ⟨S4000x64, .f32⟩
  | .local _ .vmem, ⟨12, _⟩ => ⟨S4000x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S4000x1, .f32⟩
  | .local _ .vmem, ⟨17, _⟩ => ⟨S4000x1, .f32⟩
  | .local _ .vmem, ⟨18, _⟩ => ⟨S4000x64, .f32⟩
  | .local _ .vmem, ⟨19, _⟩ => ⟨S4000x64, .f32⟩
  | .local _ .vmem, ⟨20, _⟩ => ⟨S64x32, .f32⟩
  | .local _ .vmem, ⟨21, _⟩ => ⟨S1x32, .f32⟩
  | .local _ .vmem, ⟨22, _⟩ => ⟨S32x2, .f32⟩
  | .local _ .vmem, ⟨23, _⟩ => ⟨S1x2, .f32⟩
  | .local _ .vmem, ⟨24, _⟩ => ⟨S4000x2, .f32⟩
  | .local _ .vmem, ⟨25, _⟩ => ⟨S4000x2, .f32⟩
  | _, _ => ⟨S200000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  concatenates_S3200000x12_S3200000x1_S3200000x13_d1 : Shape.Concatenates [S3200000x12, S3200000x1] S3200000x13 1
  bcast_S_S200000x13 : S_.BroadcastsInDim S200000x13 (![] : Fin 0 → Fin S200000x13.rank)
  slices_S200000x13_S200000x12_0_0 : S200000x13.Slices ![0, 0] S200000x12
  slices_S200000x13_S200000x1_0_12 : S200000x13.Slices ![0, 12] S200000x1
  bcast_S_S200000x1 : S_.BroadcastsInDim S200000x1 (![] : Fin 0 → Fin S200000x1.rank)
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x12_S4000x12_0_0 : ∀ a, (![0, 0] : Fin 2 → Nat) a + S4000x12.size a ≤ S4000x12.size a
  h_S4000x12 : 0 < S4000x12.numel
  shapeCasts_S4000x12_S4000x12 : S4000x12.ShapeCasts S4000x12
  broadcasts_S4000x1_S4000x12 : S4000x1.Broadcasts S4000x12
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  inb_S64x32_S64x32_0_0 : ∀ a, (![0, 0] : Fin 2 → Nat) a + S64x32.size a ≤ S64x32.size a
  h_S64x32 : 0 < S64x32.numel
  inb_S4000x32_S4000x32_0_0 : ∀ a, (![0, 0] : Fin 2 → Nat) a + S4000x32.size a ≤ S4000x32.size a
  h_S4000x32 : 0 < S4000x32.numel
  bcast_S_S200000x32 : S_.BroadcastsInDim S200000x32 (![] : Fin 0 → Fin S200000x32.rank)
  shapeCasts_S32_S1x32 : S32.ShapeCasts S1x32
  shapeCasts_S2_S1x2 : S2.ShapeCasts S1x2
  shapeCasts_S4000x32_S4000x32 : S4000x32.ShapeCasts S4000x32
  broadcasts_S4000x1_S4000x32 : S4000x1.Broadcasts S4000x32
  shapeCasts_S4000x64_S4000x64 : S4000x64.ShapeCasts S4000x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  gather_S200000x12_S3200000x1_S3200000x12_1_0_n_n_0_1_112_wf : GatherDims.WF S200000x12 S3200000x1 S3200000x12 [1] [0] [] [0] [] 1 ![1, 12]
  scatter_S200000x13_S3200000x1_S3200000x13_1_0_0_1_wf : ScatterDims.WF S200000x13 S3200000x1 S3200000x13 [1] [0] [0] 1
  dot_S4000x12_S12x64_S4000x64_1_0_0_1_n_n_wf : DotDims.WF S4000x12 S12x64 S4000x64 [1] [0] [0] [1] [] []
  dot_S4000x64_S64x32_S4000x32_1_0_0_1_n_n_wf : DotDims.WF S4000x64 S64x32 S4000x32 [1] [0] [0] [1] [] []
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S4000x32_S32x2_S4000x2_1_0_0_1_n_n_wf : DotDims.WF S4000x32 S32x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x12.size a ≤ S200000x12.size a
  hwx0_0 : ∀ i : grid0.Coords, EltTy.bits .f32 = 32 ∨ (Rect.block (s := S200000x12) S4000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .f32 = 32 ∨ (Rect.block (s := S200000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x12.size a ≤ S200000x12.size a
  hwx0_2 : ∀ i : grid0.Coords, EltTy.bits .f32 = 32 ∨ (Rect.block (s := S200000x12) S4000x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x64.size a ≤ S12x64.size a
  hwx0_3 : ∀ i : grid0.Coords, EltTy.bits .f32 = 32 ∨ (Rect.block (s := S12x64) S12x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x64.size a ≤ S12x64.size a
  hwx0_5 : ∀ i : grid0.Coords, EltTy.bits .f32 = 32 ∨ (Rect.block (s := S12x64) S12x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S200000x64.size a
  hwx0_7 : ∀ i : grid0.Coords, EltTy.bits .f32 = 32 ∨ (Rect.block (s := S200000x64) S4000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x32.size a ≤ S200000x32.size a
  hwx0_8 : ∀ i : grid0.Coords, EltTy.bits .f32 = 32 ∨ (Rect.block (s := S200000x32) S4000x32.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S200000x32.size a
  hwx1_0 : ∀ i : grid1.Coords, EltTy.bits .f32 = 32 ∨ (Rect.block (s := S200000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S200000x1.size a
  hwx1_1 : ∀ i : grid1.Coords, EltTy.bits .f32 = 32 ∨ (Rect.block (s := S200000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S200000x64.size a
  hwx1_2 : ∀ i : grid1.Coords, EltTy.bits .f32 = 32 ∨ (Rect.block (s := S200000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x2.size a ≤ S32x2.size a
  hwx1_5 : ∀ i : grid1.Coords, EltTy.bits .f32 = 32 ∨ (Rect.block (s := S32x2) S32x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x2.size a ≤ S200000x2.size a
  hwx1_7 : ∀ i : grid1.Coords, EltTy.bits .f32 = 32 ∨ (Rect.block (s := S200000x2) S4000x2.size (cc1_transform_7 i) (hinb1_7 i)).WholeWords (EltTy.packing .f32)

variable [Facts₀]

def gather_S200000x12_S3200000x1_S3200000x12_1_0_n_n_0_1_112 : GatherDims S200000x12 S3200000x1 S3200000x12 where
  offsetDims := [1]
  collapsedSliceDims := [0]
  operandBatchingDims := []
  startIndicesBatchingDims := []
  startIndexMap := [0]
  indexVectorDim := 1
  sliceSizes := ![1, 12]
  wf := gather_S200000x12_S3200000x1_S3200000x12_1_0_n_n_0_1_112_wf
def scatter_S200000x13_S3200000x1_S3200000x13_1_0_0_1 : ScatterDims S200000x13 S3200000x1 S3200000x13 where
  updateWindowDims := [1]
  insertedWindowDims := [0]
  scatterDimsToOperandDims := [0]
  indexVectorDim := 1
  wf := scatter_S200000x13_S3200000x1_S3200000x13_1_0_0_1_wf
def dot_S4000x12_S12x64_S4000x64_1_0_0_1_n_n : DotDims S4000x12 S12x64 S4000x64 where
  lhsContracting := [1]
  rhsContracting := [0]
  lhsNonContracting := [0]
  rhsNonContracting := [1]
  lhsBatch := []
  rhsBatch := []
  wf := dot_S4000x12_S12x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S4000x32_S32x2_S4000x2_1_0_0_1_n_n : DotDims S4000x32 S32x2 S4000x2 where
  lhsContracting := [1]
  rhsContracting := [0]
  lhsNonContracting := [0]
  rhsNonContracting := [1]
  lhsBatch := []
  rhsBatch := []
  wf := dot_S4000x32_S32x2_S4000x2_1_0_0_1_n_n_wf

abbrev win0_0 : Pipeline.Window sig grid0 :=
  Pipeline.Window.ofSpec (Memref.whole main_v16) S4000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S12x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S12x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_0) S4000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_1) S4000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v33) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23_0) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S4000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x12 : Shape := ⟨2, ![200000, 12]⟩
abbrev S2x3200000 : Shape := ⟨2, ![2, 3200000]⟩
abbrev S12x64 : Shape := ⟨2, ![12, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x12 : Shape := ⟨2, ![3200000, 12]⟩
abbrev S200000 : Shape := ⟨1, ![200000]⟩
abbrev S200000x1 : Shape := ⟨2, ![200000, 1]⟩
abbrev S200000x64 : Shape := ⟨2, ![200000, 64]⟩
abbrev S1x64 : Shape := ⟨2, ![1, 64]⟩
abbrev S3200000x64 : Shape := ⟨2, ![3200000, 64]⟩
abbrev S200000x32 : Shape := ⟨2, ![200000, 32]⟩
abbrev S1x32 : Shape := ⟨2, ![1, 32]⟩
abbrev S200000x2 : Shape := ⟨2, ![200000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S200000x12, .f32⟩
  | .hbm, ⟨1, _⟩ => ⟨S2x3200000, .i32⟩
  | .hbm, ⟨2, _⟩ => ⟨S12x64, .f32⟩
  | .hbm, ⟨3, _⟩ => ⟨S64, .f32⟩
  | .hbm, ⟨4, _⟩ => ⟨S12x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x2, .f32⟩
  | .hbm, ⟨9, _⟩ => ⟨S2, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x12, .f32⟩
  | .hbm, ⟨23, _⟩ => ⟨S_, .f32⟩
  | .hbm, ⟨24, _⟩ => ⟨S200000x12, .f32⟩
  | .hbm, ⟨25, _⟩ => ⟨S3200000x1, .i32⟩
  | .hbm, ⟨26, _⟩ => ⟨S200000x12, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S200000, .f32⟩
  | .hbm, ⟨31, _⟩ => ⟨S3200000x1, .i32⟩
  | .hbm, ⟨32, _⟩ => ⟨S200000, .f32⟩
  | .hbm, ⟨33, _⟩ => ⟨S_, .f32⟩
  | .hbm, ⟨34, _⟩ => ⟨S200000, .f32⟩
  | .hbm, ⟨35, _⟩ => ⟨S200000, .f32⟩
  | .hbm, ⟨36, _⟩ => ⟨S200000x1, .f32⟩
  | .hbm, ⟨37, _⟩ => ⟨S200000x12, .f32⟩
  | .hbm, ⟨38, _⟩ => ⟨S200000x12, .f32⟩
  | .hbm, ⟨39, _⟩ => ⟨S200000x64, .f32⟩
  | .hbm, ⟨40, _⟩ => ⟨S1x64, .f32⟩
  | .hbm, ⟨41, _⟩ => ⟨S200000x64, .f32⟩
  | .hbm, ⟨42, _⟩ => ⟨S200000x64, .f32⟩
  | .hbm, ⟨43, _⟩ => ⟨S200000x64, .f32⟩
  | .hbm, ⟨44, _⟩ => ⟨S200000x64, .f32⟩
  | .hbm, ⟨45, _⟩ => ⟨S_, .f32⟩
  | .hbm, ⟨46, _⟩ => ⟨S200000x64, .f32⟩
  | .hbm, ⟨47, _⟩ => ⟨S200000x64, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x64, .f32⟩
  | .hbm, ⟨57, _⟩ => ⟨S_, .f32⟩
  | .hbm, ⟨58, _⟩ => ⟨S200000x64, .f32⟩
  | .hbm, ⟨59, _⟩ => ⟨S3200000x1, .i32⟩
  | .hbm, ⟨60, _⟩ => ⟨S200000x64, .f32⟩
  | .hbm, ⟨61, _⟩ => ⟨S_, .f32⟩
  | .hbm, ⟨62, _⟩ => ⟨S3200000, .f32⟩
  | .hbm, ⟨63, _⟩ => ⟨S_, .f32⟩
  | .hbm, ⟨64, _⟩ => ⟨S200000, .f32⟩
  | .hbm, ⟨65, _⟩ => ⟨S3200000x1, .i32⟩
  | .hbm, ⟨66, _⟩ => ⟨S200000, .f32⟩
  | .hbm, ⟨67, _⟩ => ⟨S_, .f32⟩
  | .hbm, ⟨68, _⟩ => ⟨S200000, .f32⟩
  | .hbm, ⟨69, _⟩ => ⟨S200000, .f32⟩
  | .hbm, ⟨70, _⟩ => ⟨S200000x1, .f32⟩
  | .hbm, ⟨71, _⟩ => ⟨S200000x64, .f32⟩
  | .hbm, ⟨72, _⟩ => ⟨S200000x64, .f32⟩
  | .hbm, ⟨73, _⟩ => ⟨S200000x32, .f32⟩
  | .hbm, ⟨74, _⟩ => ⟨S1x32, .f32⟩
  | .hbm, ⟨75, _⟩ => ⟨S200000x32, .f32⟩
  | .hbm, ⟨76, _⟩ => ⟨S200000x32, .f32⟩
  | .hbm, ⟨77, _⟩ => ⟨S200000x32, .f32⟩
  | .hbm, ⟨78, _⟩ => ⟨S200000x32, .f32⟩
  | .hbm, ⟨79, _⟩ => ⟨S_, .f32⟩
  | .hbm, ⟨80, _⟩ => ⟨S200000x32, .f32⟩
  | .hbm, ⟨81, _⟩ => ⟨S200000x32, .f32⟩
  | .hbm, ⟨82, _⟩ => ⟨S200000x2, .f32⟩
  | .hbm, ⟨83, _⟩ => ⟨S1x2, .f32⟩
  | .hbm, ⟨84, _⟩ => ⟨S200000x2, .f32⟩
  | .hbm, ⟨85, _⟩ => ⟨S200000x2, .f32⟩
  | _, _ => ⟨S200000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S200000x12 : S_.BroadcastsInDim S200000x12 (![] : Fin 0 → Fin S200000x12.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x12_0_1 : S200000x1.BroadcastsInDim S200000x12 (![0, 1] : Fin 2 → Fin S200000x12.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  gather_S200000x12_S3200000x1_S3200000x12_1_0_n_n_0_1_112_wf : GatherDims.WF S200000x12 S3200000x1 S3200000x12 [1] [0] [] [0] [] 1 ![1, 12]
  scatter_S200000x12_S3200000x1_S3200000x12_1_0_0_1_wf : ScatterDims.WF S200000x12 S3200000x1 S3200000x12 [1] [0] [0] 1
  scatter_S200000_S3200000x1_S3200000_n_0_0_1_wf : ScatterDims.WF S200000 S3200000x1 S3200000 [] [0] [0] 1
  dot_S200000x12_S12x64_S200000x64_1_0_0_1_n_n_wf : DotDims.WF S200000x12 S12x64 S200000x64 [1] [0] [0] [1] [] []
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S200000x64_S64x32_S200000x32_1_0_0_1_n_n_wf : DotDims.WF S200000x64 S64x32 S200000x32 [1] [0] [0] [1] [] []
  dot_S200000x32_S32x2_S200000x2_1_0_0_1_n_n_wf : DotDims.WF S200000x32 S32x2 S200000x2 [1] [0] [0] [1] [] []

variable [Facts₀]

def gather_S200000x12_S3200000x1_S3200000x12_1_0_n_n_0_1_112 : GatherDims S200000x12 S3200000x1 S3200000x12 where
  offsetDims := [1]
  collapsedSliceDims := [0]
  operandBatchingDims := []
  startIndicesBatchingDims := []
  startIndexMap := [0]
  indexVectorDim := 1
  sliceSizes := ![1, 12]
  wf := gather_S200000x12_S3200000x1_S3200000x12_1_0_n_n_0_1_112_wf
def scatter_S200000x12_S3200000x1_S3200000x12_1_0_0_1 : ScatterDims S200000x12 S3200000x1 S3200000x12 where
  updateWindowDims := [1]
  insertedWindowDims := [0]
  scatterDimsToOperandDims := [0]
  indexVectorDim := 1
  wf := scatter_S200000x12_S3200000x1_S3200000x12_1_0_0_1_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S200000x12_S12x64_S200000x64_1_0_0_1_n_n : DotDims S200000x12 S12x64 S200000x64 where
  lhsContracting := [1]
  rhsContracting := [0]
  lhsNonContracting := [0]
  rhsNonContracting := [1]
  lhsBatch := []
  rhsBatch := []
  wf := dot_S200000x12_S12x64_S200000x64_1_0_0_1_n_n_wf
def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def dot_S200000x32_S32x2_S200000x2_1_0_0_1_n_n : DotDims S200000x32 S32x2 S200000x2 where
  lhsContracting := [1]
  rhsContracting := [0]
  lhsNonContracting := [0]
  rhsNonContracting := [1]
  lhsBatch := []
  rhsBatch := []
  wf := dot_S200000x32_S32x2_S200000x2_1_0_0_1_n_n_wf

class Facts : Prop extends Facts₀ where

variable [Facts]
-- ==== Proof.Spec.lean ====
/-
  Two layers of mean aggregation over a graph, followed by a linear classifier, written as functions on the
  extended reals.

  The graph is a list of edges.  Edge `e` carries features from the node `node e` to the row whose number is the
  integer `dst e`; an edge whose `dst e` is the number of no row contributes nothing.  `segSum dst f r` is the sum of
  `f e` over the edges `e` that land on row `r`, and the degree of `r` is the number of those edges.  A row's mean
  divides by `max degree 1`.

  Each layer is `max (mean · Wl + b + self · Wr) 0`.  The two arrangements below differ in two places only:
  * where the reference divides an aggregate by `max degree 1`, the other multiplies it by the reciprocal `1 / max degree 1`;
  * in the second layer the reference aggregates the 64 hidden features and then multiplies by `W2l`, while the other
    first multiplies every node's hidden features by `W2l` and aggregates the 32 products.
  That they agree on finite inputs is the subject of the next module.
-/
import Idealize.ShloMosaic.PureOps.Ideal

noncomputable section

namespace Cert.Sage

open Idealize.ShloMosaic

variable {N E C0 C1 C2 C3 : ℕ}

/-- The sum of `f e` over the edges `e` whose destination is row `r`. -/
def segSum (dst : Fin E → ℤ) (f : Fin E → EReal) (r : Fin N) : EReal :=
  ∑ e : Fin E, if dst e = (r.val : ℤ) then f e else 0

/-- The number of edges landing on row `r`, but at least one. -/
def dmax (dst : Fin E → ℤ) (r : Fin N) : EReal := max (segSum dst (fun _ => (1 : EReal)) r) 1

/-! ## The reference's arrangement -/

/-- First layer: aggregate the neighbours' inputs, divide by the degree, two linear maps, a bias, a rectifier. -/
def hid (dst : Fin E → ℤ) (node : Fin E → Fin N) (X : Fin N → Fin C0 → EReal) (W1l : Fin C0 → Fin C1 → EReal)
    (b1 : Fin C1 → EReal) (W1r : Fin C0 → Fin C1 → EReal) (r : Fin N) (k : Fin C1) : EReal :=
  max ((∑ f : Fin C0, Ideal.div (segSum dst (fun e => X (node e) f) r) (dmax dst r) * W1l f k) + b1 k
        + ∑ f : Fin C0, X r f * W1r f k) 0

/-- Second layer: aggregate the neighbours' hidden features, divide, multiply by `W2l`. -/
def hid2 (dst : Fin E → ℤ) (node : Fin E → Fin N) (H : Fin N → Fin C1 → EReal) (W2l : Fin C1 → Fin C2 → EReal)
    (b2 : Fin C2 → EReal) (W2r : Fin C1 → Fin C2 → EReal) (r : Fin N) (j : Fin C2) : EReal :=
  max ((∑ k : Fin C1, Ideal.div (segSum dst (fun e => H (node e) k) r) (dmax dst r) * W2l k j) + b2 j
        + ∑ k : Fin C1, H r k * W2r k j) 0

/-- The classifier on top of a layer's output. -/
def cls (H2 : Fin N → Fin C2 → EReal) (Wc : Fin C2 → Fin C3 → EReal) (bc : Fin C3 → EReal) (r : Fin N) (o : Fin C3) : EReal :=
  (∑ j : Fin C2, H2 r j * Wc j o) + bc o

/-- The whole network in the reference's arrangement. -/
def outRef (dst : Fin E → ℤ) (node : Fin E → Fin N) (X : Fin N → Fin C0 → EReal) (W1l : Fin C0 → Fin C1 → EReal)
    (b1 : Fin C1 → EReal) (W1r : Fin C0 → Fin C1 → EReal) (W2l : Fin C1 → Fin C2 → EReal) (b2 : Fin C2 → EReal)
    (W2r : Fin C1 → Fin C2 → EReal) (Wc : Fin C2 → Fin C3 → EReal) (bc : Fin C3 → EReal) (r : Fin N) (o : Fin C3) : EReal :=
  cls (hid2 dst node (hid dst node X W1l b1 W1r) W2l b2 W2r) Wc bc r o

/-! ## The arrangement with reciprocals and the early projection -/

/-- The reciprocal of a row's degree (at least one). -/
def invDeg (dst : Fin E → ℤ) (r : Fin N) : EReal := Ideal.div 1 (dmax dst r)

/-- First layer with the aggregate multiplied by the reciprocal degree. -/
def hidK (dst : Fin E → ℤ) (node : Fin E → Fin N) (X : Fin N → Fin C0 → EReal) (W1l : Fin C0 → Fin C1 → EReal)
    (b1 : Fin C1 → EReal) (W1r : Fin C0 → Fin C1 → EReal) (r : Fin N) (k : Fin C1) : EReal :=
  max ((∑ f : Fin C0, (segSum dst (fun e => X (node e) f) r * invDeg dst r) * W1l f k) + b1 k
        + ∑ f : Fin C0, X r f * W1r f k) 0

/-- A node's hidden features already multiplied by the second layer's neighbour weights. -/
def proj (H : Fin N → Fin C1 → EReal) (W2l : Fin C1 → Fin C2 → EReal) (r : Fin N) (j : Fin C2) : EReal :=
  ∑ k : Fin C1, H r k * W2l k j

/-- Second layer over the aggregated projections. -/
def hid2K (dst : Fin E → ℤ) (node : Fin E → Fin N) (H : Fin N → Fin C1 → EReal) (W2l : Fin C1 → Fin C2 → EReal)
    (b2 : Fin C2 → EReal) (W2r : Fin C1 → Fin C2 → EReal) (r : Fin N) (j : Fin C2) : EReal :=
  max (segSum dst (fun e => proj H W2l (node e) j) r * invDeg dst r + b2 j + ∑ k : Fin C1, H r k * W2r k j) 0

/-- The whole network in this arrangement. -/
def outKer (dst : Fin E → ℤ) (node : Fin E → Fin N) (X : Fin N → Fin C0 → EReal) (W1l : Fin C0 → Fin C1 → EReal)
    (b1 : Fin C1 → EReal) (W1r : Fin C0 → Fin C1 → EReal) (W2l : Fin C1 → Fin C2 → EReal) (b2 : Fin C2 → EReal)
    (W2r : Fin C1 → Fin C2 → EReal) (Wc : Fin C2 → Fin C3 → EReal) (bc : Fin C3 → EReal) (r : Fin N) (o : Fin C3) : EReal :=
  cls (hid2K dst node (hidK dst node X W1l b1 W1r) W2l b2 W2r) Wc bc r o

end Cert.Sage

end
-- ==== Proof.Law.lean ====
/-
  The two arrangements of the network agree when the inputs that reach the second layer's aggregation are finite.

  Dividing an extended real by `max degree 1` (a real number, at least one) is multiplying it by the reciprocal, so the
  first layers agree with no hypothesis.  In the second layer, moving the multiplication by `W2l` inside the sum over the
  edges is distributivity, which on the extended reals needs the summands finite: the hidden features are finite when
  `X`, `W1l`, `b1`, `W1r` are, and `W2l` is assumed finite.  Nothing is asked of `b2`, `W2r`, `Wc`, `bc`.
-/
import proofs.«151622_j87789131530773_2_alg».proof.Proof.Spec

noncomputable section

namespace Cert.Sage

open Idealize.ShloMosaic

variable {N E C0 C1 C2 C3 : ℕ}

/-- An extended real that is a real number. -/
def Fin' (a : EReal) : Prop := a ≠ ⊤ ∧ a ≠ ⊥

/-! ## The inclusion of the reals into the extended reals -/

/-- A finite extended real is the image of a real number. -/
theorem Fin'.exists_real {a : EReal} (h : Fin' a) : ∃ x : ℝ, a = (x : EReal) :=
  ⟨a.toReal, (EReal.coe_toReal h.1 h.2).symm⟩

/-- The image of a real number is finite. -/
theorem fin'_coe (x : ℝ) : Fin' (x : EReal) := ⟨EReal.coe_ne_top x, EReal.coe_ne_bot x⟩

/-- The inclusion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion commutes with the maximum of two numbers. -/
theorem coe_max' (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

/-- The inclusion commutes with "this value if the condition holds, zero otherwise". -/
theorem coe_ite' (p : Prop) [Decidable p] (x : ℝ) :
    (if p then (x : EReal) else 0) = ((if p then x else 0 : ℝ) : EReal) := by
  split_ifs
  · rfl
  · exact EReal.coe_zero.symm

/-- The sum over a row's edges of real values is the image of the real sum. -/
theorem segSum_coe (dst : Fin E → ℤ) (f : Fin E → ℝ) (r : Fin N) :
    segSum dst (fun e => (f e : EReal)) r
      = ((∑ e : Fin E, if dst e = (r.val : ℤ) then f e else 0 : ℝ) : EReal) := by
  rw [segSum, coe_sum]
  exact Finset.sum_congr rfl fun e _ => coe_ite' _ _

/-! ## The degree and its reciprocal -/

/-- `max degree 1` is a real number, at least one. -/
theorem dmax_real (dst : Fin E → ℤ) (r : Fin N) : ∃ d : ℝ, 1 ≤ d ∧ dmax dst r = (d : EReal) := by
  refine ⟨max (∑ e : Fin E, if dst e = (r.val : ℤ) then (1 : ℝ) else 0) 1, le_max_right _ _, ?_⟩
  have h := segSum_coe dst (fun _ => (1 : ℝ)) r
  rw [EReal.coe_one] at h
  rw [dmax, h, coe_max', EReal.coe_one]

/-- The reciprocal degree is a real number `c`, and dividing by the degree is multiplying by `c`. -/
theorem invDeg_real (dst : Fin E → ℤ) (r : Fin N) :
    ∃ c : ℝ, invDeg dst r = (c : EReal) ∧ ∀ a : EReal, Ideal.div a (dmax dst r) = a * (c : EReal) := by
  obtain ⟨d, hd, hdm⟩ := dmax_real dst r
  have hd0 : d ≠ 0 := ne_of_gt (lt_of_lt_of_le one_pos hd)
  refine ⟨1 / d, ?_, ?_⟩
  · rw [invDeg, hdm, Ideal.div_coe hd0, one_mul]
  · intro a
    rw [hdm, Ideal.div_coe hd0]

/-- Dividing any extended real by the degree is multiplying it by the reciprocal degree. -/
theorem div_dmax (dst : Fin E → ℤ) (r : Fin N) (a : EReal) :
    Ideal.div a (dmax dst r) = a * invDeg dst r := by
  obtain ⟨c, hc, h⟩ := invDeg_real dst r
  rw [h, hc]

/-- The first layers agree, with no hypothesis. -/
theorem hidK_eq_hid (dst : Fin E → ℤ) (node : Fin E → Fin N) (X : Fin N → Fin C0 → EReal)
    (W1l : Fin C0 → Fin C1 → EReal) (b1 : Fin C1 → EReal) (W1r : Fin C0 → Fin C1 → EReal) :
    hidK dst node X W1l b1 W1r = hid dst node X W1l b1 W1r := by
  funext r k
  simp only [hidK, hid, div_dmax]

/-! ## Finiteness is kept by the operations of a layer -/

theorem fin'_zero : Fin' 0 := fin'_coe 0

theorem Fin'.add {a b : EReal} (ha : Fin' a) (hb : Fin' b) : Fin' (a + b) := by
  obtain ⟨x, rfl⟩ := ha.exists_real
  obtain ⟨y, rfl⟩ := hb.exists_real
  rw [← EReal.coe_add]
  exact fin'_coe _

theorem Fin'.mul {a b : EReal} (ha : Fin' a) (hb : Fin' b) : Fin' (a * b) := by
  obtain ⟨x, rfl⟩ := ha.exists_real
  obtain ⟨y, rfl⟩ := hb.exists_real
  rw [← EReal.coe_mul]
  exact fin'_coe _

theorem Fin'.max_zero {a : EReal} (ha : Fin' a) : Fin' (max a 0) := by
  obtain ⟨x, rfl⟩ := ha.exists_real
  rw [← EReal.coe_zero, ← coe_max']
  exact fin'_coe _

theorem fin'_sum {ι : Type*} (s : Finset ι) (f : ι → EReal) (h : ∀ i ∈ s, Fin' (f i)) :
    Fin' (∑ i ∈ s, f i) := by
  classical
  induction s using Finset.induction_on with
  | empty => rw [Finset.sum_empty]; exact fin'_zero
  | insert a s ha ih =>
    rw [Finset.sum_insert ha]
    exact (h a (Finset.mem_insert_self a s)).add (ih fun i hi => h i (Finset.mem_insert_of_mem hi))

theorem fin'_segSum (dst : Fin E → ℤ) (f : Fin E → EReal) (hf : ∀ e, Fin' (f e)) (r : Fin N) :
    Fin' (segSum dst f r) := by
  unfold segSum
  refine fin'_sum _ _ fun e _ => ?_
  split_ifs
  · exact hf e
  · exact fin'_zero

theorem fin'_invDeg (dst : Fin E → ℤ) (r : Fin N) : Fin' (invDeg dst r) := by
  obtain ⟨c, hc, -⟩ := invDeg_real dst r
  rw [hc]
  exact fin'_coe c

/-- The hidden features are finite when the inputs and the first layer's weights are. -/
theorem fin'_hid (dst : Fin E → ℤ) (node : Fin E → Fin N) (X : Fin N → Fin C0 → EReal)
    (W1l : Fin C0 → Fin C1 → EReal) (b1 : Fin C1 → EReal) (W1r : Fin C0 → Fin C1 → EReal)
    (hX : ∀ r f, Fin' (X r f)) (hW1l : ∀ f k, Fin' (W1l f k)) (hb1 : ∀ k, Fin' (b1 k))
    (hW1r : ∀ f k, Fin' (W1r f k)) (r : Fin N) (k : Fin C1) :
    Fin' (hid dst node X W1l b1 W1r r k) := by
  unfold hid
  refine Fin'.max_zero (((fin'_sum _ _ fun f _ => ?_).add (hb1 k)).add
    (fin'_sum _ _ fun f _ => (hX r f).mul (hW1r f k)))
  rw [div_dmax]
  exact ((fin'_segSum dst _ (fun e => hX (node e) f) r).mul (fin'_invDeg dst r)).mul (hW1l f k)

/-! ## The second layer: the multiplication by `W2l` moves inside the sum over the edges -/

/-- The real identity behind the second layer: both sides are the sum over the row's edges and over the hidden
    features of `H (node e) k * c * W k j`. -/
theorem agg_proj_real (dst : Fin E → ℤ) (node : Fin E → Fin N) (H : Fin N → Fin C1 → ℝ) (W : Fin C1 → Fin C2 → ℝ)
    (c : ℝ) (r : Fin N) (j : Fin C2) :
    ∑ k : Fin C1, (∑ e : Fin E, if dst e = (r.val : ℤ) then H (node e) k else 0) * c * W k j
      = (∑ e : Fin E, if dst e = (r.val : ℤ) then ∑ k : Fin C1, H (node e) k * W k j else 0) * c := by
  simp only [Finset.sum_mul]
  rw [Finset.sum_comm]
  refine Finset.sum_congr rfl fun e _ => ?_
  split_ifs
  · rw [Finset.sum_mul]
    exact Finset.sum_congr rfl fun k _ => by ring
  · simp

/-- For finite hidden features and finite `W2l`, aggregating, dividing by the degree and multiplying by `W2l` is
    aggregating the projections and multiplying by the reciprocal degree. -/
theorem agg_proj (dst : Fin E → ℤ) (node : Fin E → Fin N) (H : Fin N → Fin C1 → EReal)
    (W2l : Fin C1 → Fin C2 → EReal) (hH : ∀ r k, Fin' (H r k)) (hW : ∀ k j, Fin' (W2l k j))
    (r : Fin N) (j : Fin C2) :
    ∑ k : Fin C1, Ideal.div (segSum dst (fun e => H (node e) k) r) (dmax dst r) * W2l k j
      = segSum dst (fun e => proj H W2l (node e) j) r * invDeg dst r := by
  obtain ⟨c, hc, -⟩ := invDeg_real dst r
  choose Hr hHr using fun r k => (hH r k).exists_real
  choose Wr hWr using fun k j => (hW k j).exists_real
  obtain rfl : H = fun r k => (Hr r k : EReal) := funext fun r => funext fun k => hHr r k
  obtain rfl : W2l = fun k j => (Wr k j : EReal) := funext fun k => funext fun j => hWr k j
  simp only [div_dmax, hc, proj]
  simp only [← EReal.coe_mul, ← coe_sum, segSum_coe]
  rw [EReal.coe_eq_coe_iff]
  exact agg_proj_real dst node Hr Wr c r j

/-- The second layers agree on finite hidden features and finite `W2l`. -/
theorem hid2K_eq_hid2 (dst : Fin E → ℤ) (node : Fin E → Fin N) (H : Fin N → Fin C1 → EReal)
    (W2l : Fin C1 → Fin C2 → EReal) (b2 : Fin C2 → EReal) (W2r : Fin C1 → Fin C2 → EReal)
    (hH : ∀ r k, Fin' (H r k)) (hW : ∀ k j, Fin' (W2l k j)) :
    hid2K dst node H W2l b2 W2r = hid2 dst node H W2l b2 W2r := by
  funext r j
  rw [hid2K, hid2, agg_proj dst node H W2l hH hW r j]

theorem outKer_eq_outRef (dst : Fin E → ℤ) (node : Fin E → Fin N) (X : Fin N → Fin C0 → EReal)
    (W1l : Fin C0 → Fin C1 → EReal) (b1 : Fin C1 → EReal) (W1r : Fin C0 → Fin C1 → EReal)
    (W2l : Fin C1 → Fin C2 → EReal) (b2 : Fin C2 → EReal) (W2r : Fin C1 → Fin C2 → EReal)
    (Wc : Fin C2 → Fin C3 → EReal) (bc : Fin C3 → EReal)
    (hX : ∀ r f, Fin' (X r f)) (hW1l : ∀ f k, Fin' (W1l f k)) (hb1 : ∀ k, Fin' (b1 k)) (hW1r : ∀ f k, Fin' (W1r f k))
    (hW2l : ∀ k j, Fin' (W2l k j)) (r : Fin N) (o : Fin C3) :
    outKer dst node X W1l b1 W1r W2l b2 W2r Wc bc r o = outRef dst node X W1l b1 W1r W2l b2 W2r Wc bc r o := by
  rw [outKer, outRef, hidK_eq_hid,
    hid2K_eq_hid2 dst node _ W2l b2 W2r (fin'_hid dst node X W1l b1 W1r hX hW1l hb1 hW1r) hW2l]

end Cert.Sage

end
-- ==== Proof.Finite.lean ====
/-
  The precondition makes the float inputs finite.

  The precondition is the conjunction, over the nine float inputs, of "every entry has absolute value below +∞".  On the
  extended reals the absolute value of `x` is `max x (-x)`, and this is below +∞ exactly when `x` is neither +∞ nor −∞,
  that is, when `x` is a real number.  A conjunction of one-bit words is 1 when both are, and an "all" over an array of
  one-bit words is 1 only when every entry is 1; so from the precondition being 1 every entry of every float input is
  finite.  Five of the nine inputs are recorded here.
-/
import proofs.«151622_j87789131530773_2_alg».proof.Pre_finite_inputs
import proofs.«151622_j87789131530773_2_alg».proof.Proof.Law
import Idealize.ShloMosaic.Lib.ReduceAll
import Idealize.ShloMosaic.Lib.ValueIdx
import Idealize.ShloMosaic.PureOps.Ideal.Laws

noncomputable section

namespace Cert.FiniteIn

open Idealize.ShloMosaic Cert.Pre_finite_inputs

/-- The pattern `0x7F800000` denotes +∞. -/
theorem inf_eq_top : Ideal.ofBits .f32 0x7F800000#32 = ⊤ := by simp [Ideal.ofBits, Ideal.ieee]

/-- An extended real whose absolute value `max x (-x)` compares below +∞ is a real number. -/
theorem fin_of_abs_lt (x : EReal)
    (h : Ideal.cmp .olt (max x (-x)) (Ideal.ofBits .f32 0x7F800000#32) = 1#1) : Cert.Sage.Fin' x := by
  rw [inf_eq_top] at h
  have hlt : max x (-x) < ⊤ := by
    by_contra hn
    have h' : BitVec.ofBool (decide (max x (-x) < ⊤)) = 1#1 := h
    rw [decide_eq_false hn] at h'
    exact absurd h' (by decide)
  rw [max_lt_iff] at hlt
  refine ⟨ne_of_lt hlt.1, fun hb => ?_⟩
  rw [hb, EReal.neg_bot] at hlt
  exact lt_irrefl _ hlt.2

/-- The result of a reduction over all axes has one index. -/
instance subsingleton_scalar_idx : Subsingleton S_.Idx := ⟨fun a b => funext fun d => d.elim0⟩

/-- "All entries have absolute value below +∞" being 1 makes every entry a real number. -/
theorem all_fin {s : Shape} {axes : List (Fin s.rank)} (a : FVec Ideal s .f32)
    (b : S_.BroadcastsInDim s (![] : Fin 0 → Fin s.rank)) (hr : s.ReducesTo axes S_) (hu : 0 < S_.numel)
    (e : Host.reduce IntOp.andi
        (cmpf .olt (Host.absf a) (broadcastInDim s ![] b (constant S_ .f32 0x7F800000#32)))
        (constantI S_ 1 1#1) hr hu ValueIdx.ix0 = 1#1) (i : s.Idx) : Cert.Sage.Fin' (a i) :=
  fin_of_abs_lt (a i) (Host.reduce_andi_all _ _ hr hu _ e i)

theorem finite_of_pre [Cert.Pre_finite_inputs.Facts] (a0 : FVec Ideal Cert.Pre_finite_inputs.S200000x12 .f32)
    (a1 : IVec Cert.Pre_finite_inputs.S2x3200000 32) (a2 : FVec Ideal S12x64 .f32) (a3 : FVec Ideal S64 .f32)
    (a4 : FVec Ideal S12x64 .f32) (a5 : FVec Ideal S64x32 .f32) (a6 : FVec Ideal S32 .f32)
    (a7 : FVec Ideal S64x32 .f32) (a8 : FVec Ideal S32x2 .f32) (a9 : FVec Ideal S2 .f32)
    (h : Cert.Pre_finite_inputs.fn (F := Ideal) a0 a1 a2 a3 a4 a5 a6 a7 a8 a9 = fun _ => 1#1) :
    (∀ i, Cert.Sage.Fin' (a0 i)) ∧ (∀ i, Cert.Sage.Fin' (a2 i)) ∧ (∀ i, Cert.Sage.Fin' (a3 i))
      ∧ (∀ i, Cert.Sage.Fin' (a4 i)) ∧ (∀ i, Cert.Sage.Fin' (a5 i)) := by
  have h0 := congrFun h ValueIdx.ix0
  dsimp only [Cert.Pre_finite_inputs.fn, fn_part1, fn_part2] at h0
  simp only [andi, IntOp.andi_eq_one] at h0
  obtain ⟨⟨⟨⟨⟨⟨⟨⟨e0, e2⟩, e3⟩, e4⟩, e5⟩, -⟩, -⟩, -⟩, -⟩ := h0
  exact ⟨all_fin a0 _ _ _ e0, all_fin a2 _ _ _ e2, all_fin a3 _ _ _ e3, all_fin a4 _ _ _ e4,
    all_fin a5 _ _ _ e5⟩

end Cert.FiniteIn

end
-- ==== Proof.KernelRun.lean ====
/-
  The idealized kernel's run, with its result named.

  The program is four segments: a stretch of host operations, the first layer's kernel over 50 blocks of 4000 rows, a second
  stretch of host operations, and the second kernel over the same 50 blocks.  Every weakly fair execution goes through the
  four in order and ends with every buffer that outlives the run at the contents the last segment leaves: the result array
  at what the second kernel's blocks wrote back, the argument arrays as they were launched.
-/
import proofs.«151622_j87789131530773_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents and the
    ten argument arrays end as launched. -/
theorem run_out : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Out

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.KernelBody.lean ====
/-
  What the two kernels compute on one block of 4000 rows, read at a row `p` of the block and a column.

  First kernel: the block of aggregated inputs times the block's reciprocal degrees (one per row), times `W1l`; plus the
  bias row; plus the block of inputs times `W1r`; the rectifier.  Its second result multiplies that by `W2l`.
  Second kernel: the block of aggregated projections times the reciprocal degrees, plus the bias row, plus the block of
  hidden features times `W2r`; the rectifier; times `Wc`; plus the classifier's bias row.
  Every matrix product starts from a zero accumulator, so it is the plain sum over the contracted coordinate; a change of
  float format is the identity on the extended reals.
-/
import proofs.«151622_j87789131530773_2_alg».proof.Proof.Gen.KernelIdeal.Skeleton
import proofs.«151622_j87789131530773_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen
open Idealize.ShloMosaic Idealize.ShloMosaic.ValueIdx

/-! ## The three matrix products into a zero accumulator -/

theorem mm_12_64 (l : FVec Ideal S4000x12 .bf16) (r : FVec Ideal S12x64 .bf16) (p : Fin 4000) (q : Fin 64) :
    matmul dot_S4000x12_S12x64_S4000x64_1_0_0_1_n_n none l r (constant S4000x64 .f32 0x00000000#32) (ix2 p q)
      = ∑ f : Fin 12, l (ix2 p f) * r (ix2 f q) :=
  Cert.LibRowOps.matmul_zero_apply dot_S4000x12_S12x64_S4000x64_1_0_0_1_n_n none l r rfl rfl
    (fun j k => by
      unfold DotDims.lhsIdx
      rw [dif_neg (show ¬(0 : Fin S4000x12.rank) ∈ dot_S4000x12_S12x64_S4000x64_1_0_0_1_n_n.lhsBatch by decide),
        dif_pos (show (0 : Fin S4000x12.rank) ∈ dot_S4000x12_S12x64_S4000x64_1_0_0_1_n_n.lhsNonContracting by decide)]
      rfl)
    (fun j k => dot_S4000x12_S12x64_S4000x64_1_0_0_1_n_n.lhsIdx_val_of_single rfl j k)
    (fun j k => dot_S4000x12_S12x64_S4000x64_1_0_0_1_n_n.rhsIdx_val_of_single rfl j k)
    (fun j k => by
      unfold DotDims.rhsIdx
      rw [dif_neg (show ¬(1 : Fin S12x64.rank) ∈ dot_S4000x12_S12x64_S4000x64_1_0_0_1_n_n.rhsBatch by decide),
        dif_pos (show (1 : Fin S12x64.rank) ∈ dot_S4000x12_S12x64_S4000x64_1_0_0_1_n_n.rhsNonContracting by decide)]
      rfl)
    p q

theorem mm_64_32 (l : FVec Ideal S4000x64 .bf16) (r : FVec Ideal S64x32 .bf16) (p : Fin 4000) (q : Fin 32) :
    matmul dot_S4000x64_S64x32_S4000x32_1_0_0_1_n_n none l r (constant S4000x32 .f32 0x00000000#32) (ix2 p q)
      = ∑ k : Fin 64, l (ix2 p k) * r (ix2 k q) :=
  Cert.LibRowOps.matmul_zero_apply dot_S4000x64_S64x32_S4000x32_1_0_0_1_n_n none l r rfl rfl
    (fun j k => by
      unfold DotDims.lhsIdx
      rw [dif_neg (show ¬(0 : Fin S4000x64.rank) ∈ dot_S4000x64_S64x32_S4000x32_1_0_0_1_n_n.lhsBatch by decide),
        dif_pos (show (0 : Fin S4000x64.rank) ∈ dot_S4000x64_S64x32_S4000x32_1_0_0_1_n_n.lhsNonContracting by decide)]
      rfl)
    (fun j k => dot_S4000x64_S64x32_S4000x32_1_0_0_1_n_n.lhsIdx_val_of_single rfl j k)
    (fun j k => dot_S4000x64_S64x32_S4000x32_1_0_0_1_n_n.rhsIdx_val_of_single rfl j k)
    (fun j k => by
      unfold DotDims.rhsIdx
      rw [dif_neg (show ¬(1 : Fin S64x32.rank) ∈ dot_S4000x64_S64x32_S4000x32_1_0_0_1_n_n.rhsBatch by decide),
        dif_pos (show (1 : Fin S64x32.rank) ∈ dot_S4000x64_S64x32_S4000x32_1_0_0_1_n_n.rhsNonContracting by decide)]
      rfl)
    p q

theorem mm_32_2 (l : FVec Ideal S4000x32 .bf16) (r : FVec Ideal S32x2 .bf16) (p : Fin 4000) (q : Fin 2) :
    matmul dot_S4000x32_S32x2_S4000x2_1_0_0_1_n_n none l r (constant S4000x2 .f32 0x00000000#32) (ix2 p q)
      = ∑ k : Fin 32, l (ix2 p k) * r (ix2 k q) :=
  Cert.LibRowOps.matmul_zero_apply dot_S4000x32_S32x2_S4000x2_1_0_0_1_n_n none l r rfl rfl
    (fun j k => by
      unfold DotDims.lhsIdx
      rw [dif_neg (show ¬(0 : Fin S4000x32.rank) ∈ dot_S4000x32_S32x2_S4000x2_1_0_0_1_n_n.lhsBatch by decide),
        dif_pos (show (0 : Fin S4000x32.rank) ∈ dot_S4000x32_S32x2_S4000x2_1_0_0_1_n_n.lhsNonContracting by decide)]
      rfl)
    (fun j k => dot_S4000x32_S32x2_S4000x2_1_0_0_1_n_n.lhsIdx_val_of_single rfl j k)
    (fun j k => dot_S4000x32_S32x2_S4000x2_1_0_0_1_n_n.rhsIdx_val_of_single rfl j k)
    (fun j k => by
      unfold DotDims.rhsIdx
      rw [dif_neg (show ¬(1 : Fin S32x2.rank) ∈ dot_S4000x32_S32x2_S4000x2_1_0_0_1_n_n.rhsBatch by decide),
        dif_pos (show (1 : Fin S32x2.rank) ∈ dot_S4000x32_S32x2_S4000x2_1_0_0_1_n_n.rhsNonContracting by decide)]
      rfl)
    p q

/-! ## A column of one value per row, spread over the columns -/

/-- A `[a, 1]` array broadcast to `[a, b]` reads, at `(p, c)`, the operand's entry of row `p`. -/
theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-! ## The payloads at a row and a column -/

/-- The first kernel's hidden block at `(p, q)`. -/
theorem pay_hidden (v0 : Vec Ideal S4000x1 .f32) (v2 v7 : Vec Ideal S4000x12 .f32) (v9 v11 : Vec Ideal S12x64 .f32)
    (v14 : Vec Ideal S1x64 .f32) (p : Fin 4000) (q : Fin 64) :
    k0_pay1 v0 v2 v7 v9 v11 v14 (ix2 p q)
      = max ((∑ f : Fin 12, (v2 (ix2 p f) * v0 (ix2 p (0 : Fin 1))) * v9 (ix2 f q)) + v14 (ix2 (0 : Fin 1) q)
          + ∑ f : Fin 12, v7 (ix2 p f) * v11 (ix2 f q)) 0 := by
  unfold k0_pay1
  simp only [shapeCast_self]
  rw [maximumf_apply, addf_apply, addf_apply, mm_12_64, mm_12_64, broadcast_apply,
    broadcastTo_1b_ab_apply]
  simp only [truncf_apply, mulf_apply, broadcastTo_a1_ab_apply (by decide : (4000 : ℕ) ≠ 1)]
  rw [Ideal.ofBits_def, Ideal.ofBits_zero_f32]

/-- The first kernel's projected block at `(p, j)`: the hidden block's row `p` times column `j` of `W2l`. -/
theorem pay_proj (v0 : Vec Ideal S4000x1 .f32) (v2 v7 : Vec Ideal S4000x12 .f32) (v9 v11 : Vec Ideal S12x64 .f32)
    (v14 : Vec Ideal S1x64 .f32) (v24 : Vec Ideal S64x32 .f32) (p : Fin 4000) (j : Fin 32) :
    k0_pay2 v0 v2 v7 v9 v11 v14 v24 (ix2 p j)
      = ∑ k : Fin 64, k0_pay1 v0 v2 v7 v9 v11 v14 (ix2 p k) * v24 (ix2 k j) := by
  unfold k0_pay2
  rw [mm_64_32]
  simp only [truncf_apply]

/-- The second kernel's result block at `(p, o)`. -/
theorem pay_out (v0 : Vec Ideal S4000x1 .f32) (v2 : Vec Ideal S4000x32 .f32) (v6 : Vec Ideal S4000x64 .f32)
    (v9 : Vec Ideal S64x32 .f32) (v11 : Vec Ideal S1x32 .f32) (v20 : Vec Ideal S32x2 .f32) (v23 : Vec Ideal S1x2 .f32)
    (p : Fin 4000) (o : Fin 2) :
    k1_pay1 v0 v2 v6 v9 v11 v20 v23 (ix2 p o)
      = (∑ j : Fin 32, max (v2 (ix2 p j) * v0 (ix2 p (0 : Fin 1)) + v11 (ix2 (0 : Fin 1) j)
            + ∑ k : Fin 64, v6 (ix2 p k) * v9 (ix2 k j)) 0 * v20 (ix2 j o)) + v23 (ix2 (0 : Fin 1) o) := by
  unfold k1_pay1
  simp only [shapeCast_self]
  rw [addf_apply, mm_32_2, broadcastTo_1b_ab_apply]
  simp only [truncf_apply, maximumf_apply, addf_apply, mm_64_32, broadcast_apply, broadcastTo_1b_ab_apply, mulf_apply,
    broadcastTo_a1_ab_apply (by decide : (4000 : ℕ) ≠ 1), Ideal.ofBits_def, Ideal.ofBits_zero_f32]

end Cert.KernelIdeal.Body

end
-- ==== Proof.KernelArrays.lean ====
/-
  What each kernel writes back at a grid point, as a block of ONE function of the arrays the kernel finds.

  Both kernels run over 50 blocks of 4000 rows.  At point `t` every array indexed by rows (the aggregates, the reciprocal
  degrees, the inputs or the hidden features) is read through rows `4000 t … 4000 t + 3999`, and the weight and bias
  arrays are read whole.  A row of the result depends on the same row of the row-indexed operands only, so what point `t`
  writes back is rows `4000 t …` of the function below of the WHOLE arrays.
-/
import proofs.«151622_j87789131530773_2_alg».proof.Proof.Gen.KernelIdeal.Frame
import proofs.«151622_j87789131530773_2_alg».proof.Proof.KernelBody
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Body
open Idealize.ShloMosaic Idealize.ShloMosaic.TcCoe Idealize.ShloMosaic.ValueIdx
open Idealize.SL.Sem
open Idealize.ShloMosaic.Pipeline (Dat Cfg Window)

/-! ## The functions of whole arrays -/

/-- The first layer at row `r`, hidden feature `k`: `a0` the aggregated inputs, `a1` the reciprocal degrees, `a2` the inputs,
    `a3`, `a5` the two weight arrays, `a4` the bias row. -/
def hidAt (a0 : S200000x12.Idx → EReal) (a1 : S200000x1.Idx → EReal) (a2 : S200000x12.Idx → EReal)
    (a3 : S12x64.Idx → EReal) (a4 : S1x64.Idx → EReal) (a5 : S12x64.Idx → EReal) (r : Fin 200000) (k : Fin 64) : EReal :=
  max ((∑ f : Fin 12, (a0 (ix2 r f) * a1 (ix2 r (0 : Fin 1))) * a3 (ix2 f k)) + a4 (ix2 (0 : Fin 1) k)
        + ∑ f : Fin 12, a2 (ix2 r f) * a5 (ix2 f k)) 0

def hidArr (a0 : S200000x12.Idx → EReal) (a1 : S200000x1.Idx → EReal) (a2 : S200000x12.Idx → EReal)
    (a3 : S12x64.Idx → EReal) (a4 : S1x64.Idx → EReal) (a5 : S12x64.Idx → EReal) : S200000x64.Idx → EReal :=
  fun i => hidAt a0 a1 a2 a3 a4 a5 ⟨(i 0).val, idx2_lt0 i⟩ ⟨(i 1).val, idx2_lt1 i⟩

/-- The hidden features of row `r` times column `j` of `a6`. -/
def projAt (a0 : S200000x12.Idx → EReal) (a1 : S200000x1.Idx → EReal) (a2 : S200000x12.Idx → EReal)
    (a3 : S12x64.Idx → EReal) (a4 : S1x64.Idx → EReal) (a5 : S12x64.Idx → EReal) (a6 : S64x32.Idx → EReal)
    (r : Fin 200000) (j : Fin 32) : EReal :=
  ∑ k : Fin 64, hidAt a0 a1 a2 a3 a4 a5 r k * a6 (ix2 k j)

def projArr (a0 : S200000x12.Idx → EReal) (a1 : S200000x1.Idx → EReal) (a2 : S200000x12.Idx → EReal)
    (a3 : S12x64.Idx → EReal) (a4 : S1x64.Idx → EReal) (a5 : S12x64.Idx → EReal) (a6 : S64x32.Idx → EReal) :
    S200000x32.Idx → EReal :=
  fun i => projAt a0 a1 a2 a3 a4 a5 a6 ⟨(i 0).val, idx2_lt0 i⟩ ⟨(i 1).val, idx2_lt1 i⟩

/-- The second layer and the classifier at row `r`, class `o`: `b0` the aggregated projections, `b1` the reciprocal degrees,
    `b2` the hidden features, `b3`, `b5` weight arrays, `b4`, `b6` bias rows. -/
def outAt (b0 : S200000x32.Idx → EReal) (b1 : S200000x1.Idx → EReal) (b2 : S200000x64.Idx → EReal)
    (b3 : S64x32.Idx → EReal) (b4 : S1x32.Idx → EReal) (b5 : S32x2.Idx → EReal) (b6 : S1x2.Idx → EReal)
    (r : Fin 200000) (o : Fin 2) : EReal :=
  (∑ j : Fin 32, max (b0 (ix2 r j) * b1 (ix2 r (0 : Fin 1)) + b4 (ix2 (0 : Fin 1) j)
        + ∑ k : Fin 64, b2 (ix2 r k) * b3 (ix2 k j)) 0 * b5 (ix2 j o)) + b6 (ix2 (0 : Fin 1) o)

def outArr (b0 : S200000x32.Idx → EReal) (b1 : S200000x1.Idx → EReal) (b2 : S200000x64.Idx → EReal)
    (b3 : S64x32.Idx → EReal) (b4 : S1x32.Idx → EReal) (b5 : S32x2.Idx → EReal) (b6 : S1x2.Idx → EReal) :
    S200000x2.Idx → EReal :=
  fun i => outAt b0 b1 b2 b3 b4 b5 b6 ⟨(i 0).val, idx2_lt0 i⟩ ⟨(i 1).val, idx2_lt1 i⟩

/-! ## Rows of a block -/

/-- The row of the array that row `p` of block `t` is. -/
def rowOf (t : Fin cfg0.N) (p : Fin 4000) : Fin 200000 :=
  ⟨t.val * 4000 + p.val, by have h : t.val < 50 := lt_of_lt_of_eq t.isLt N_0
                            have := p.isLt; omega⟩

theorem hz : (![0, 0] : Fin 2 → Nat) = fun _ => 0 := funext fun a => by fin_cases a <;> rfl

/-- The printed index maps of the first kernel's windows, decided over the grid: a row-indexed window is at block `(t, 0)`,
    a weight or bias window at block `(0, 0)`. -/
theorem idxA : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

variable (V : (c : Dev nD) → (b : Ref sig .tc) → Buf (Elt Ideal) ((c : Thread nD τ).loc b))

/-- The first kernel's hidden block at point `t`, row `p`, feature `k`, is the first layer at row `4000 t + p`. -/
theorem hidden_block (c : Dev nD) (t : Fin cfg0.N) (p : Fin 4000) (k : Fin 64) :
    k0_pay1 (iblk0 V c 1 t) (iblk0 V c 0 t) (iblk0 V c 2 t) (iblk0 V c 3 t) (iblk0 V c 5 t) (iblk0 V c 4 t) (ix2 p k)
      = hidAt (V c main_v16) (V c main_v21) (V c main_arg0) (V c main_arg2) (V c main_v22) (V c main_arg4) (rowOf t p) k := by
  refine (pay_hidden _ _ _ _ _ _ p k).trans ?_
  obtain ⟨e00, e01, e10, e11, e20, e21, e30, e31, e40, e41, e50, e51, -⟩ := idxA t
  have b0 : ∀ f : Fin 12, (iblk0 V c 0 t : S4000x12.Idx → EReal) (ix2 p f) = V c main_v16 (ix2 (rowOf t p) f) := fun f =>
    congrArg (V c main_v16) (funext fun a => Fin.ext (by
      match a with
      | ⟨0, _⟩ => show win0_0.index t (0 : Fin 2) * 4000 + 1 * p.val = t.val * 4000 + p.val; omega
      | ⟨1, _⟩ => show win0_0.index t (1 : Fin 2) * 12 + 1 * f.val = f.val; omega))
  have b1 : (iblk0 V c 1 t : S4000x1.Idx → EReal) (ix2 p (0 : Fin 1)) = V c main_v21 (ix2 (rowOf t p) (0 : Fin 1)) :=
    congrArg (V c main_v21) (funext fun a => Fin.ext (by
      match a with
      | ⟨0, _⟩ => show win0_1.index t (0 : Fin 2) * 4000 + 1 * p.val = t.val * 4000 + p.val; omega
      | ⟨1, _⟩ => show win0_1.index t (1 : Fin 2) * 1 + 1 * 0 = 0; omega))
  have b2 : ∀ f : Fin 12, (iblk0 V c 2 t : S4000x12.Idx → EReal) (ix2 p f) = V c main_arg0 (ix2 (rowOf t p) f) := fun f =>
    congrArg (V c main_arg0) (funext fun a => Fin.ext (by
      match a with
      | ⟨0, _⟩ => show win0_2.index t (0 : Fin 2) * 4000 + 1 * p.val = t.val * 4000 + p.val; omega
      | ⟨1, _⟩ => show win0_2.index t (1 : Fin 2) * 12 + 1 * f.val = f.val; omega))
  have b3 : ∀ f : Fin 12, (iblk0 V c 3 t : S12x64.Idx → EReal) (ix2 f k) = V c main_arg2 (ix2 f k) := fun f =>
    congrArg (V c main_arg2) (funext fun a => Fin.ext (by
      match a with
      | ⟨0, _⟩ => show win0_3.index t (0 : Fin 2) * 12 + 1 * f.val = f.val; omega
      | ⟨1, _⟩ => show win0_3.index t (1 : Fin 2) * 64 + 1 * k.val = k.val; omega))
  have b4 : (iblk0 V c 4 t : S1x64.Idx → EReal) (ix2 (0 : Fin 1) k) = V c main_v22 (ix2 (0 : Fin 1) k) :=
    congrArg (V c main_v22) (funext fun a => Fin.ext (by
      match a with
      | ⟨0, _⟩ => show win0_4.index t (0 : Fin 2) * 1 + 1 * 0 = 0; omega
      | ⟨1, _⟩ => show win0_4.index t (1 : Fin 2) * 64 + 1 * k.val = k.val; omega))
  have b5 : ∀ f : Fin 12, (iblk0 V c 5 t : S12x64.Idx → EReal) (ix2 f k) = V c main_arg4 (ix2 f k) := fun f =>
    congrArg (V c main_arg4) (funext fun a => Fin.ext (by
      match a with
      | ⟨0, _⟩ => show win0_5.index t (0 : Fin 2) * 12 + 1 * f.val = f.val; omega
      | ⟨1, _⟩ => show win0_5.index t (1 : Fin 2) * 64 + 1 * k.val = k.val; omega))
  unfold hidAt
  rw [b1, b4]
  simp only [b0, b2, b3, b5]

/-- WHAT POINT `t` OF THE FIRST KERNEL WRITES BACK TO THE HIDDEN FEATURES is block `t` of `hidArr` of the arrays as found. -/
theorem flushed_hid (c : Dev nD) (t : Fin cfg0.N) :
    (dat0 V c).flushed 7 t = ((cfg0.win 7).blk t).view.read (Elt Ideal)
      (hidArr (V c main_v16) (V c main_v21) (V c main_arg0) (V c main_arg2) (V c main_v22) (V c main_arg4)) := by
  show (cfg0.win 7).cut (grid0.coords t) ((dat0 V c).after 7 t) = _
  rw [after0_7]
  unfold out0_7
  rw [View.canon_unit_zero hz]
  simp only [View.ld_unit_zero (S := S4000x1) hz, View.ld_unit_zero (S := S4000x12) hz, View.ld_unit_zero (S := S12x64) hz,
    View.ld_unit_zero (S := S1x64) hz]
  funext j
  revert j
  show ∀ j : S4000x64.Idx, k0_pay1 (iblk0 V c 1 t) (iblk0 V c 0 t) (iblk0 V c 2 t) (iblk0 V c 3 t) (iblk0 V c 5 t) (iblk0 V c 4 t) j
      = hidArr (V c main_v16) (V c main_v21) (V c main_arg0) (V c main_arg2) (V c main_v22) (V c main_arg4)
          (((cfg0.win 7).blk t).view.emb j)
  intro j
  obtain ⟨p, q, rfl⟩ : ∃ (p : Fin 4000) (q : Fin 64), j = ix2 p q := ⟨j 0, j 1, eq_ix2 j⟩
  rw [hidden_block]
  obtain ⟨-, -, -, -, -, -, -, -, -, -, -, -, -, -, e70, e71, -⟩ := idxA t
  have he : ((cfg0.win 7).blk t).view.emb (ix2 p q) = ix2 (rowOf t p) q := funext fun a => Fin.ext (by
    match a with
    | ⟨0, _⟩ => show win0_7.index t (0 : Fin 2) * 4000 + 1 * p.val = t.val * 4000 + p.val; omega
    | ⟨1, _⟩ => show win0_7.index t (1 : Fin 2) * 64 + 1 * q.val = q.val; omega)
  rw [he]
  rfl

/-- WHAT POINT `t` OF THE FIRST KERNEL WRITES BACK TO THE PROJECTIONS is block `t` of `projArr` of the arrays as found. -/
theorem flushed_proj (c : Dev nD) (t : Fin cfg0.N) :
    (dat0 V c).flushed 8 t = ((cfg0.win 8).blk t).view.read (Elt Ideal)
      (projArr (V c main_v16) (V c main_v21) (V c main_arg0) (V c main_arg2) (V c main_v22) (V c main_arg4) (V c main_arg5)) := by
  show (cfg0.win 8).cut (grid0.coords t) ((dat0 V c).after 8 t) = _
  rw [after0_8]
  unfold out0_8
  rw [View.canon_unit_zero hz]
  simp only [View.ld_unit_zero (S := S4000x1) hz, View.ld_unit_zero (S := S4000x12) hz, View.ld_unit_zero (S := S12x64) hz,
    View.ld_unit_zero (S := S1x64) hz, View.ld_unit_zero (S := S64x32) hz]
  funext j
  revert j
  show ∀ j : S4000x32.Idx, k0_pay2 (iblk0 V c 1 t) (iblk0 V c 0 t) (iblk0 V c 2 t) (iblk0 V c 3 t) (iblk0 V c 5 t) (iblk0 V c 4 t)
        (iblk0 V c 6 t) j
      = projArr (V c main_v16) (V c main_v21) (V c main_arg0) (V c main_arg2) (V c main_v22) (V c main_arg4) (V c main_arg5)
          (((cfg0.win 8).blk t).view.emb j)
  intro j
  obtain ⟨p, q, rfl⟩ : ∃ (p : Fin 4000) (q : Fin 32), j = ix2 p q := ⟨j 0, j 1, eq_ix2 j⟩
  refine (pay_proj _ _ _ _ _ _ _ p q).trans ?_
  obtain ⟨-, -, -, -, -, -, -, -, -, -, -, -, e60, e61, -, -, e80, e81⟩ := idxA t
  have b6 : ∀ k : Fin 64, (iblk0 V c 6 t : S64x32.Idx → EReal) (ix2 k q) = V c main_arg5 (ix2 k q) := fun k =>
    congrArg (V c main_arg5) (funext fun a => Fin.ext (by
      match a with
      | ⟨0, _⟩ => show win0_6.index t (0 : Fin 2) * 64 + 1 * k.val = k.val; omega
      | ⟨1, _⟩ => show win0_6.index t (1 : Fin 2) * 32 + 1 * q.val = q.val; omega))
  have he : ((cfg0.win 8).blk t).view.emb (ix2 p q) = ix2 (rowOf t p) q := funext fun a => Fin.ext (by
    match a with
    | ⟨0, _⟩ => show win0_8.index t (0 : Fin 2) * 4000 + 1 * p.val = t.val * 4000 + p.val; omega
    | ⟨1, _⟩ => show win0_8.index t (1 : Fin 2) * 32 + 1 * q.val = q.val; omega)
  rw [he]
  show _ = projAt (V c main_v16) (V c main_v21) (V c main_arg0) (V c main_arg2) (V c main_v22) (V c main_arg4) (V c main_arg5)
    (rowOf t p) q
  unfold projAt
  exact Finset.sum_congr rfl fun k _ => by rw [hidden_block, b6]

/-! ## The second kernel -/

/-- The row of the array that row `p` of the second kernel's block `t` is. -/
def rowOf' (t : Fin cfg1.N) (p : Fin 4000) : Fin 200000 :=
  ⟨t.val * 4000 + p.val, by have h : t.val < 50 := lt_of_lt_of_eq t.isLt N_1
                            have := p.isLt; omega⟩

/-- The printed index maps of the second kernel's windows, decided over the grid. -/
theorem idxB : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- WHAT POINT `t` OF THE SECOND KERNEL WRITES BACK is block `t` of `outArr` of the arrays as found. -/
theorem flushed_out (c : Dev nD) (t : Fin cfg1.N) :
    (dat1 V c).flushed 7 t = ((cfg1.win 7).blk t).view.read (Elt Ideal)
      (outArr (V c main_v33) (V c main_v21) (V c main_v23_0) (V c main_arg7) (V c main_v34) (V c main_arg8) (V c main_v35)) := by
  show (cfg1.win 7).cut (grid1.coords t) ((dat1 V c).after 7 t) = _
  rw [after1_7]
  unfold out1_7
  rw [View.canon_unit_zero hz]
  simp only [View.ld_unit_zero (S := S4000x1) hz, View.ld_unit_zero (S := S4000x32) hz, View.ld_unit_zero (S := S4000x64) hz,
    View.ld_unit_zero (S := S64x32) hz, View.ld_unit_zero (S := S1x32) hz, View.ld_unit_zero (S := S32x2) hz,
    View.ld_unit_zero (S := S1x2) hz]
  funext j
  revert j
  show ∀ j : S4000x2.Idx, k1_pay1 (iblk1 V c 1 t) (iblk1 V c 0 t) (iblk1 V c 2 t) (iblk1 V c 3 t) (iblk1 V c 4 t) (iblk1 V c 5 t)
        (iblk1 V c 6 t) j
      = outArr (V c main_v33) (V c main_v21) (V c main_v23_0) (V c main_arg7) (V c main_v34) (V c main_arg8) (V c main_v35)
          (((cfg1.win 7).blk t).view.emb j)
  intro j
  obtain ⟨p, o, rfl⟩ : ∃ (p : Fin 4000) (o : Fin 2), j = ix2 p o := ⟨j 0, j 1, eq_ix2 j⟩
  refine (pay_out _ _ _ _ _ _ _ p o).trans ?_
  obtain ⟨e00, e01, e10, e11, e20, e21, e30, e31, e40, e41, e50, e51, e60, e61, e70, e71⟩ := idxB t
  have b0 : ∀ j : Fin 32, (iblk1 V c 0 t : S4000x32.Idx → EReal) (ix2 p j) = V c main_v33 (ix2 (rowOf' t p) j) := fun j =>
    congrArg (V c main_v33) (funext fun a => Fin.ext (by
      match a with
      | ⟨0, _⟩ => show win1_0.index t (0 : Fin 2) * 4000 + 1 * p.val = t.val * 4000 + p.val; omega
      | ⟨1, _⟩ => show win1_0.index t (1 : Fin 2) * 32 + 1 * j.val = j.val; omega))
  have b1 : (iblk1 V c 1 t : S4000x1.Idx → EReal) (ix2 p (0 : Fin 1)) = V c main_v21 (ix2 (rowOf' t p) (0 : Fin 1)) :=
    congrArg (V c main_v21) (funext fun a => Fin.ext (by
      match a with
      | ⟨0, _⟩ => show win1_1.index t (0 : Fin 2) * 4000 + 1 * p.val = t.val * 4000 + p.val; omega
      | ⟨1, _⟩ => show win1_1.index t (1 : Fin 2) * 1 + 1 * 0 = 0; omega))
  have b2 : ∀ k : Fin 64, (iblk1 V c 2 t : S4000x64.Idx → EReal) (ix2 p k) = V c main_v23_0 (ix2 (rowOf' t p) k) := fun k =>
    congrArg (V c main_v23_0) (funext fun a => Fin.ext (by
      match a with
      | ⟨0, _⟩ => show win1_2.index t (0 : Fin 2) * 4000 + 1 * p.val = t.val * 4000 + p.val; omega
      | ⟨1, _⟩ => show win1_2.index t (1 : Fin 2) * 64 + 1 * k.val = k.val; omega))
  have b3 : ∀ (k : Fin 64) (j : Fin 32), (iblk1 V c 3 t : S64x32.Idx → EReal) (ix2 k j) = V c main_arg7 (ix2 k j) := fun k j =>
    congrArg (V c main_arg7) (funext fun a => Fin.ext (by
      match a with
      | ⟨0, _⟩ => show win1_3.index t (0 : Fin 2) * 64 + 1 * k.val = k.val; omega
      | ⟨1, _⟩ => show win1_3.index t (1 : Fin 2) * 32 + 1 * j.val = j.val; omega))
  have b4 : ∀ j : Fin 32, (iblk1 V c 4 t : S1x32.Idx → EReal) (ix2 (0 : Fin 1) j) = V c main_v34 (ix2 (0 : Fin 1) j) := fun j =>
    congrArg (V c main_v34) (funext fun a => Fin.ext (by
      match a with
      | ⟨0, _⟩ => show win1_4.index t (0 : Fin 2) * 1 + 1 * 0 = 0; omega
      | ⟨1, _⟩ => show win1_4.index t (1 : Fin 2) * 32 + 1 * j.val = j.val; omega))
  have b5 : ∀ j : Fin 32, (iblk1 V c 5 t : S32x2.Idx → EReal) (ix2 j o) = V c main_arg8 (ix2 j o) := fun j =>
    congrArg (V c main_arg8) (funext fun a => Fin.ext (by
      match a with
      | ⟨0, _⟩ => show win1_5.index t (0 : Fin 2) * 32 + 1 * j.val = j.val; omega
      | ⟨1, _⟩ => show win1_5.index t (1 : Fin 2) * 2 + 1 * o.val = o.val; omega))
  have b6 : (iblk1 V c 6 t : S1x2.Idx → EReal) (ix2 (0 : Fin 1) o) = V c main_v35 (ix2 (0 : Fin 1) o) :=
    congrArg (V c main_v35) (funext fun a => Fin.ext (by
      match a with
      | ⟨0, _⟩ => show win1_6.index t (0 : Fin 2) * 1 + 1 * 0 = 0; omega
      | ⟨1, _⟩ => show win1_6.index t (1 : Fin 2) * 2 + 1 * o.val = o.val; omega))
  have he : ((cfg1.win 7).blk t).view.emb (ix2 p o) = ix2 (rowOf' t p) o := funext fun a => Fin.ext (by
    match a with
    | ⟨0, _⟩ => show win1_7.index t (0 : Fin 2) * 4000 + 1 * p.val = t.val * 4000 + p.val; omega
    | ⟨1, _⟩ => show win1_7.index t (1 : Fin 2) * 2 + 1 * o.val = o.val; omega)
  rw [he]
  show _ = outAt (V c main_v33) (V c main_v21) (V c main_v23_0) (V c main_arg7) (V c main_v34) (V c main_arg8) (V c main_v35)
    (rowOf' t p) o
  unfold outAt
  rw [b1, b6]
  simp only [b0, b2, b3, b4, b5]

end Cert.KernelIdeal.Arr

end
-- ==== Proof.KernelCover.lean ====
/-
  The output arrays are covered by the blocks the grid points write back.

  Each kernel runs over 50 grid points.  Block `t` of an output window of width `C` is rows `4000 t … 4000 t + 3999`, all
  `C` columns, of its `[200000, C]` array.  So every index `(row, col)` of the array lies in the block of the point
  `t = row / 4000` (which is below 50 because `row < 200000`), and every point writes its block back.
-/
import proofs.«151622_j87789131530773_2_alg».proof.Proof.Gen.KernelIdeal.Frame
import Idealize.ShloMosaic.Lib.Pipeline.Value
import Idealize.ShloMosaic.Lib.ValueIdx

set_option maxRecDepth 16384

noncomputable section

namespace Cert.KernelIdeal.Cover

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The block index of every window at every grid point -/

/-- First kernel, decided over the 50 points: the windows that move with the rows (0, 1, 2 and the outputs 7, 8) are at
    block `(t, 0)` at point `t`; the weight and bias windows (3, 4, 5, 6) stay at block `(0, 0)`. -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-- Second kernel, decided over the 50 points: the windows that move with the rows (0, 1, 2 and the output 7) are at
    block `(t, 0)` at point `t`; the weight and bias windows (3, 4, 5, 6) stay at block `(0, 0)`. -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-! ## First kernel, first output: the `[200000, 64]` array -/

/-- An index of the `[200000, 64]` array is in point `t`'s block iff each coordinate is in the block's range on its
    axis. -/
theorem mem_blk0_7 (t : Fin cfg0.N) (i : S200000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v23_0).slice (win0_7.rect t)).set ↔ _
  rw [View.set_slice_whole, Rect.mem_set_unit]
  exact Iff.rfl

/-- Every index `(row, col)` of the `[200000, 64]` array lies in the block of the point `row / 4000`, and that point
    writes its block back. -/
theorem cover0_7 (i : S200000x64.Idx) :
    ∃ t : Fin cfg0.N, (cfg0.win 7).flush t = true ∧ i ∈ ((cfg0.win 7).blk t).view.set := by
  have hi0 : (i 0).val < 200000 := (i 0).isLt
  have hi1 : (i 1).val < 64 := (i 1).isLt
  have hN : cfg0.N = 50 := N_0
  obtain ⟨t, ht⟩ : ∃ t : Fin cfg0.N, t.val = (i 0).val / 4000 :=
    ⟨⟨(i 0).val / 4000, lt_of_lt_of_eq (by omega : (i 0).val / 4000 < 50) hN.symm⟩, rfl⟩
  obtain ⟨-, -, -, -, -, -, -, -, -, -, -, -, -, -, e0, e1, -, -⟩ := idx0 t
  refine ⟨t, flush0_7 t, ?_⟩
  rw [mem_blk0_7]
  intro a
  match a with
  | ⟨0, _⟩ =>
    show win0_7.index t (0 : Fin 2) * 4000 ≤ (i 0).val
      ∧ (i 0).val < win0_7.index t (0 : Fin 2) * 4000 + 4000
    omega
  | ⟨1, _⟩ =>
    show win0_7.index t (1 : Fin 2) * 64 ≤ (i 1).val
      ∧ (i 1).val < win0_7.index t (1 : Fin 2) * 64 + 64
    omega

/-! ## First kernel, second output: the `[200000, 32]` array -/

/-- An index of the `[200000, 32]` array is in point `t`'s block iff each coordinate is in the block's range on its
    axis. -/
theorem mem_blk0_8 (t : Fin cfg0.N) (i : S200000x32.Idx) :
    i ∈ ((cfg0.win 8).blk t).view.set ↔ ∀ a : Fin 2, win0_8.index t a * S4000x32.size a ≤ (i a).val
      ∧ (i a).val < win0_8.index t a * S4000x32.size a + S4000x32.size a := by
  show i ∈ ((View.whole main_v23_1).slice (win0_8.rect t)).set ↔ _
  rw [View.set_slice_whole, Rect.mem_set_unit]
  exact Iff.rfl

/-- Every index `(row, col)` of the `[200000, 32]` array lies in the block of the point `row / 4000`, and that point
    writes its block back. -/
theorem cover0_8 (i : S200000x32.Idx) :
    ∃ t : Fin cfg0.N, (cfg0.win 8).flush t = true ∧ i ∈ ((cfg0.win 8).blk t).view.set := by
  have hi0 : (i 0).val < 200000 := (i 0).isLt
  have hi1 : (i 1).val < 32 := (i 1).isLt
  have hN : cfg0.N = 50 := N_0
  obtain ⟨t, ht⟩ : ∃ t : Fin cfg0.N, t.val = (i 0).val / 4000 :=
    ⟨⟨(i 0).val / 4000, lt_of_lt_of_eq (by omega : (i 0).val / 4000 < 50) hN.symm⟩, rfl⟩
  obtain ⟨-, -, -, -, -, -, -, -, -, -, -, -, -, -, -, -, e0, e1⟩ := idx0 t
  refine ⟨t, flush0_8 t, ?_⟩
  rw [mem_blk0_8]
  intro a
  match a with
  | ⟨0, _⟩ =>
    show win0_8.index t (0 : Fin 2) * 4000 ≤ (i 0).val
      ∧ (i 0).val < win0_8.index t (0 : Fin 2) * 4000 + 4000
    omega
  | ⟨1, _⟩ =>
    show win0_8.index t (1 : Fin 2) * 32 ≤ (i 1).val
      ∧ (i 1).val < win0_8.index t (1 : Fin 2) * 32 + 32
    omega

/-! ## Second kernel, its output: the `[200000, 2]` array -/

/-- An index of the `[200000, 2]` array is in point `t`'s block iff each coordinate is in the block's range on its
    axis. -/
theorem mem_blk1_7 (t : Fin cfg1.N) (i : S200000x2.Idx) :
    i ∈ ((cfg1.win 7).blk t).view.set ↔ ∀ a : Fin 2, win1_7.index t a * S4000x2.size a ≤ (i a).val
      ∧ (i a).val < win1_7.index t a * S4000x2.size a + S4000x2.size a := by
  show i ∈ ((View.whole main_v36).slice (win1_7.rect t)).set ↔ _
  rw [View.set_slice_whole, Rect.mem_set_unit]
  exact Iff.rfl

/-- Every index `(row, col)` of the `[200000, 2]` array lies in the block of the point `row / 4000`, and that point
    writes its block back. -/
theorem cover1_7 (i : S200000x2.Idx) :
    ∃ t : Fin cfg1.N, (cfg1.win 7).flush t = true ∧ i ∈ ((cfg1.win 7).blk t).view.set := by
  have hi0 : (i 0).val < 200000 := (i 0).isLt
  have hi1 : (i 1).val < 2 := (i 1).isLt
  have hN : cfg1.N = 50 := N_1
  obtain ⟨t, ht⟩ : ∃ t : Fin cfg1.N, t.val = (i 0).val / 4000 :=
    ⟨⟨(i 0).val / 4000, lt_of_lt_of_eq (by omega : (i 0).val / 4000 < 50) hN.symm⟩, rfl⟩
  obtain ⟨-, -, -, -, -, -, -, -, -, -, -, -, -, -, e0, e1⟩ := idx1 t
  refine ⟨t, flush1_7 t, ?_⟩
  rw [mem_blk1_7]
  intro a
  match a with
  | ⟨0, _⟩ =>
    show win1_7.index t (0 : Fin 2) * 4000 ≤ (i 0).val
      ∧ (i 0).val < win1_7.index t (0 : Fin 2) * 4000 + 4000
    omega
  | ⟨1, _⟩ =>
    show win1_7.index t (1 : Fin 2) * 2 ≤ (i 1).val
      ∧ (i 1).val < win1_7.index t (1 : Fin 2) * 2 + 2
    omega

end Cert.KernelIdeal.Cover

end
-- ==== Proof.LibSegRows.lean ====
/-
  A row scatter-add, a flat scatter-add and a row gather, read at an index.

  All three take a column of `E` start indices (an `[E, 1]` array of machine integers, read signed).
  * The row scatter-add of an `[E, C]` array of updates into an `[N, C]` array adds row `e` of the updates to row
    `idx e` of the operand; a row whose index is the number of no row of the operand is dropped.  Read at `(r, c)`, the
    result is the operand's entry plus the sum of the updates' entries `(e, c)` over the `e` with `idx e = r`.
  * The flat scatter-add is the same with no column axis: `[E]` updates into an `[N]` array.
  * The row gather of an `[N, C]` array makes the `[E, C]` array whose row `e` is row `idx e` of the operand, the index
    clamped into `[0, N - 1]`.
-/
import Idealize.ShloMosaic.Lib.ValueIdx
import Idealize.ShloMosaic.PureOps.Ideal

noncomputable section

namespace Cert.LibSegRows

open Idealize.ShloMosaic Idealize.ShloMosaic.ValueIdx

/-- The dimension numbers of a row scatter: the updates' axis 1 is the window, the operand's axis 0 is indexed. -/
abbrev rowScatter (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: no window, the operand's one axis is indexed. -/
abbrev flatScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a row gather: whole rows (slices `[1, C]`) at the start indices. -/
abbrev rowGather (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Where an update of a row scatter lands: the update `(e, b)` goes to `(r, c)` exactly when the start index of row `e`, read
    signed, is `r` and the column is the same.  On axis 0 the landing coordinate is the start index (the window
    coordinate there is 0), on axis 1 it is the update's column (the start there is 0); a start index outside
    `[0, N)` lands nowhere. -/
theorem rowScatter_resultIdx?_eq {N C E w : ℕ} (wf : ScatterDims.WF ⟨2, ![N, C]⟩ ⟨2, ![E, 1]⟩ ⟨2, ![E, C]⟩ [1] [0] [0] 1)
    (idx : IVec ⟨2, ![E, 1]⟩ w) (e : Fin E) (b : Fin C) (r : Fin N) (c : Fin C) :
    (rowScatter N C E wf).resultIdx? (ix2 e b) idx = some (ix2 r c)
      ↔ (idx (ix2 e (0 : Fin 1))).toInt = (r.val : ℤ) ∧ b = c := by
  have hs0 : (rowScatter N C E wf).start (ix2 e b) idx 0 = (idx (ix2 e (0 : Fin 1))).toInt := by
    unfold ScatterDims.start
    rw [dif_pos (show (0 : Fin 2) ∈ (rowScatter N C E wf).scatterDimsToOperandDims from List.mem_singleton.mpr rfl)]
    have hsi : (rowScatter N C E wf).siIdx (ix2 e b) ⟨List.idxOf (0 : Fin 2) (rowScatter N C E wf).scatterDimsToOperandDims,
        List.idxOf_lt_length_iff.2 (List.mem_singleton.mpr rfl)⟩ = ix2 e (0 : Fin 1) := by
      funext a; refine Fin.ext ?_
      match a with
      | ⟨0, _⟩ => rfl
      | ⟨1, _⟩ => rfl
    rw [hsi]
  have hw0 : (rowScatter N C E wf).window (ix2 e b) 0 = 0 := by
    unfold ScatterDims.window
    rw [dif_neg (show (0 : Fin 2) ∉ (rowScatter N C E wf).sKept from
      (by decide : (0 : Fin 2) ∉ (List.finRange 2).filter (· ∉ ([0] : List (Fin 2)))))]
  have hs1 : (rowScatter N C E wf).start (ix2 e b) idx 1 = 0 := by
    unfold ScatterDims.start
    rw [dif_neg (show (1 : Fin 2) ∉ (rowScatter N C E wf).scatterDimsToOperandDims from
      (by decide : (1 : Fin 2) ∉ ([0] : List (Fin 2))))]
  have hw1 : (rowScatter N C E wf).window (ix2 e b) 1 = b.val := by
    unfold ScatterDims.window
    rw [dif_pos (show (1 : Fin 2) ∈ (rowScatter N C E wf).sKept from
      (by decide : (1 : Fin 2) ∈ (List.finRange 2).filter (· ∉ ([0] : List (Fin 2)))))]
    rfl
  unfold ScatterDims.resultIdx?
  split
  · rename_i h
    have h0 := h 0
    have h1 := h 1
    rw [hs0, hw0] at h0
    rw [hs1, hw1] at h1
    rw [Option.some.injEq]
    constructor
    · intro hf
      have e0 := congrArg Fin.val (congrFun hf 0)
      have e1 := congrArg Fin.val (congrFun hf 1)
      change ((rowScatter N C E wf).start (ix2 e b) idx 0 + (rowScatter N C E wf).window (ix2 e b) 0).toNat = r.val at e0
      change ((rowScatter N C E wf).start (ix2 e b) idx 1 + (rowScatter N C E wf).window (ix2 e b) 1).toNat = c.val at e1
      rw [hs0, hw0] at e0
      rw [hs1, hw1] at e1
      exact ⟨by omega, Fin.ext (by omega)⟩
    · rintro ⟨hr, rfl⟩
      funext a
      refine Fin.ext ?_
      match a with
      | ⟨0, _⟩ =>
        show ((rowScatter N C E wf).start (ix2 e b) idx 0 + (rowScatter N C E wf).window (ix2 e b) 0).toNat = r.val
        rw [hs0, hw0]; omega
      | ⟨1, _⟩ =>
        show ((rowScatter N C E wf).start (ix2 e b) idx 1 + (rowScatter N C E wf).window (ix2 e b) 1).toNat = b.val
        rw [hs1, hw1]; omega
  · rename_i h
    constructor
    · intro hf; exact absurd hf (by simp)
    · rintro ⟨hr, rfl⟩
      refine absurd (fun a => ?_) h
      match a with
      | ⟨0, _⟩ =>
        show 0 ≤ (rowScatter N C E wf).start (ix2 e b) idx 0 + (rowScatter N C E wf).window (ix2 e b) 0
          ∧ (rowScatter N C E wf).start (ix2 e b) idx 0 + (rowScatter N C E wf).window (ix2 e b) 0 < (N : ℤ)
        rw [hs0, hw0]; have := r.isLt; omega
      | ⟨1, _⟩ =>
        show 0 ≤ (rowScatter N C E wf).start (ix2 e b) idx 1 + (rowScatter N C E wf).window (ix2 e b) 1
          ∧ (rowScatter N C E wf).start (ix2 e b) idx 1 + (rowScatter N C E wf).window (ix2 e b) 1 < (C : ℤ)
        rw [hs1, hw1]; have := b.isLt; omega

/-- THE ROW SCATTER-ADD READ AT `(r, c)`: the operand there plus the updates `(e, c)` of the rows `e` sent to `r`. -/
theorem rowScatterAdd_apply {N C E w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (c : Fin C) :
    Ideal.hostScatterAdd (rowScatter N C E wf) x idx upd (ix2 r c)
      = x (ix2 r c) + ∑ e : Fin E, if (idx (ix2 e (0 : Fin 1))).toInt = (r.val : ℤ) then upd (ix2 e c) else 0 := by
  unfold Ideal.hostScatterAdd
  congr 1
  rw [Finset.sum_filter, sum_idx2]
  refine Finset.sum_congr rfl fun e _ => ?_
  simp only [rowScatter_resultIdx?_eq]
  by_cases hP : (idx (ix2 e (0 : Fin 1))).toInt = (r.val : ℤ)
  · simp [hP]
  · simp [hP]

/-- A rank-1 index set is in bijection with its one coordinate range: an index goes to its coordinate. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- Where an update of a flat scatter lands: the update `e` goes to `r` exactly when its start index, read signed, is
    `r` (the landing coordinate is the start index, the window coordinate being 0); a start index outside `[0, N)`
    lands nowhere. -/
theorem flatScatter_resultIdx?_eq {N E w : ℕ} (wf : ScatterDims.WF ⟨1, ![N]⟩ ⟨2, ![E, 1]⟩ ⟨1, ![E]⟩ [] [0] [0] 1)
    (idx : IVec ⟨2, ![E, 1]⟩ w) (e : Fin E) (r : Fin N) :
    (flatScatter N E wf).resultIdx? (ix1 e) idx = some (ix1 r) ↔ (idx (ix2 e (0 : Fin 1))).toInt = (r.val : ℤ) := by
  have hs0 : (flatScatter N E wf).start (ix1 e) idx 0 = (idx (ix2 e (0 : Fin 1))).toInt := by
    unfold ScatterDims.start
    rw [dif_pos (show (0 : Fin 1) ∈ (flatScatter N E wf).scatterDimsToOperandDims from List.mem_singleton.mpr rfl)]
    have hsi : (flatScatter N E wf).siIdx (ix1 e) ⟨List.idxOf (0 : Fin 1) (flatScatter N E wf).scatterDimsToOperandDims,
        List.idxOf_lt_length_iff.2 (List.mem_singleton.mpr rfl)⟩ = ix2 e (0 : Fin 1) := by
      funext a; refine Fin.ext ?_
      match a with
      | ⟨0, _⟩ => rfl
      | ⟨1, _⟩ => rfl
    rw [hsi]
  have hw0 : (flatScatter N E wf).window (ix1 e) 0 = 0 := by
    unfold ScatterDims.window
    rw [dif_neg (show (0 : Fin 1) ∉ (flatScatter N E wf).sKept from
      (by decide : (0 : Fin 1) ∉ (List.finRange 1).filter (· ∉ ([0] : List (Fin 1)))))]
  unfold ScatterDims.resultIdx?
  split
  · rename_i h
    have h0 := h 0
    rw [hs0, hw0] at h0
    rw [Option.some.injEq]
    constructor
    · intro hf
      have e0 := congrArg Fin.val (congrFun hf 0)
      change ((flatScatter N E wf).start (ix1 e) idx 0 + (flatScatter N E wf).window (ix1 e) 0).toNat = r.val at e0
      rw [hs0, hw0] at e0
      omega
    · intro hr
      funext a
      refine Fin.ext ?_
      match a with
      | ⟨0, _⟩ =>
        show ((flatScatter N E wf).start (ix1 e) idx 0 + (flatScatter N E wf).window (ix1 e) 0).toNat = r.val
        rw [hs0, hw0]; omega
  · rename_i h
    constructor
    · intro hf; exact absurd hf (by simp)
    · intro hr
      refine absurd (fun a => ?_) h
      match a with
      | ⟨0, _⟩ =>
        show 0 ≤ (flatScatter N E wf).start (ix1 e) idx 0 + (flatScatter N E wf).window (ix1 e) 0
          ∧ (flatScatter N E wf).start (ix1 e) idx 0 + (flatScatter N E wf).window (ix1 e) 0 < (N : ℤ)
        rw [hs0, hw0]; have := r.isLt; omega

/-- THE FLAT SCATTER-ADD READ AT `r`: the operand there plus the updates `e` sent to `r`. -/
theorem flatScatterAdd_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (r : Fin N) :
    Ideal.hostScatterAdd (flatScatter N E wf) x idx upd (ix1 r)
      = x (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl fun e _ => ?_
  simp only [flatScatter_resultIdx?_eq]

/-- The row a start index names: read signed, clamped into `[0, N - 1]`. -/
def clampRow {N E w : ℕ} (hN : 0 < N) (idx : IVec ⟨2, ![E, 1]⟩ w) (e : Fin E) : Fin N :=
  ⟨min (idx (ix2 e (0 : Fin 1))).toInt.toNat (N - 1), by omega⟩

/-- THE ROW GATHER READ AT `(e, c)`: the operand at the clamped row, same column. -/
theorem rowGather_apply {α : Type} {N C E w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N C E wf) x idx (ix2 e c) = x (ix2 (clampRow hN idx e) c) := by
  unfold Host.gather
  congr 1
  funext a
  match a with
  | ⟨0, _⟩ =>
    refine Fin.ext ?_
    show (rowGather N C E wf).start (ix2 e c) idx 0 + (rowGather N C E wf).batchCoord (ix2 e c) 0
      + (rowGather N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C E wf).startIndexMap from List.mem_singleton.mpr rfl)]
    have hsi : (rowGather N C E wf).siIdx (ix2 e c) ⟨List.idxOf (0 : Fin 2) (rowGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGather N C E wf).start (ix2 e c) idx 1 + (rowGather N C E wf).batchCoord (ix2 e c) 1
      + (rowGather N C E wf).offCoord (ix2 e c) 1 = c.val
    rw [GatherDims.batchCoord_eq_zero _ _ _ List.not_mem_nil]
    unfold GatherDims.start
    rw [dif_neg (show (1 : Fin 2) ∉ (rowGather N C E wf).startIndexMap from (by decide : (1 : Fin 2) ∉ ([0] : List (Fin 2))))]
    simp only [Nat.add_zero, Nat.zero_add]
    unfold GatherDims.offCoord
    rw [dif_pos (show (1 : Fin 2) ∈ (rowGather N C E wf).sKept from
      (GatherDims.mem_sKept _ _).mpr ⟨(by decide : (1 : Fin 2) ∉ ([0] : List (Fin 2))), List.not_mem_nil⟩)]
    rfl

end Cert.LibSegRows

end
-- ==== Proof.KernelHost.lean ====
/-
  The host operations around the two kernels, as functions of the argument arrays, read at a row and a column.

  From the `[2, E]` integer argument: row 1 is the column of destination rows (used by every scatter-add), row 0, with a
  negative entry moved up by the number of nodes, is the column of source nodes (used by every gather, which clamps).
  Before the first kernel: the gathered inputs with a column of ones appended are scatter-added into a `[N, 13]` array of
  zeros; its first 12 columns are the aggregated inputs, its last column the degrees; the reciprocal of `max degree 1` is a
  `[N, 1]` column.  Between the kernels: the projected features are gathered and scatter-added the same way.  A bias
  vector of length `n` is reshaped to a `[1, n]` row.
-/
import proofs.«151622_j87789131530773_2_alg».proof.KernelIdeal
import proofs.«151622_j87789131530773_2_alg».proof.Proof.Spec
import proofs.«151622_j87789131530773_2_alg».proof.Proof.LibSegRows
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HostSide

open Cert.KernelIdeal
open Idealize.ShloMosaic Idealize.ShloMosaic.ValueIdx

variable [Cert.KernelIdeal.Facts]
open Cert.KernelIdeal.Facts₀ Cert.KernelIdeal.Facts

/-- The column of destination rows: row 1 of the edge list. (`%14`, `%32` of @main.) -/
def dstArr (x1 : IVec S2x3200000 32) : IVec S3200000x1 32 :=
  broadcastInDim S3200000x1 ![0] bcast_S3200000_S3200000x1_0
    (shapeCast _ (extractStridedSlice S1x3200000 ![1, 0] x1 slices_S2x3200000_S1x3200000_1_0) shapeCasts_S1x3200000_S3200000)

/-- Row 0 of the edge list as a flat array. (`%1`.) -/
def srcFlat (x1 : IVec S2x3200000 32) : IVec S3200000 32 :=
  shapeCast _ (extractStridedSlice S1x3200000 ![0, 0] x1 slices_S2x3200000_S1x3200000_0_0) shapeCasts_S1x3200000_S3200000

/-- The column of source nodes: row 0, a negative entry moved up by the number of nodes. (`%9`, `%29`.) -/
def srcArr (x1 : IVec S2x3200000 32) : IVec S3200000x1 32 :=
  broadcastInDim S3200000x1 ![0] bcast_S3200000_S3200000x1_0
    (select (cmpi .slt (srcFlat x1) (broadcastInDim S3200000 ![] bcast_S_S3200000 (constantI S_ 32 0#32)))
      (addi (srcFlat x1) (broadcastInDim S3200000 ![] bcast_S_S3200000 (constantI S_ 32 200000#32))) (srcFlat x1))

/-- The destination row of edge `e`, read signed. -/
def dstOf (x1 : IVec S2x3200000 32) (e : Fin 3200000) : ℤ := (dstArr x1 (ix2 e (0 : Fin 1))).toInt

/-- The source node of edge `e`, clamped to a node. -/
def nodeOf (x1 : IVec S2x3200000 32) (e : Fin 3200000) : Fin 200000 :=
  Cert.LibSegRows.clampRow (N := 200000) (by decide) (srcArr x1) e

/-- The `[N, 13]` array: gathered inputs and a column of ones, scatter-added into zeros. (`%15`.) -/
def aggDeg (x0 : FVec Ideal S200000x12 .f32) (x1 : IVec S2x3200000 32) : FVec Ideal S200000x13 .f32 :=
  Host.scatterAdd scatter_S200000x13_S3200000x1_S3200000x13_1_0_0_1
    (broadcastInDim S200000x13 ![] bcast_S_S200000x13 (constant S_ .f32 0x00000000#32)) (dstArr x1)
    (concatenate S3200000x13 1
      [⟨S3200000x12, Host.gather gather_S200000x12_S3200000x1_S3200000x12_1_0_n_n_0_1_112 x0 (srcArr x1)⟩,
       ⟨S3200000x1, broadcastInDim S3200000x1 ![] bcast_S_S3200000x1 (constant S_ .f32 0x3F800000#32)⟩]
      concatenates_S3200000x12_S3200000x1_S3200000x13_d1)

/-- The aggregated inputs: the first 12 columns. (`%16`.) -/
def agg1 (x0 : FVec Ideal S200000x12 .f32) (x1 : IVec S2x3200000 32) : FVec Ideal S200000x12 .f32 :=
  extractStridedSlice S200000x12 ![0, 0] (aggDeg x0 x1) slices_S200000x13_S200000x12_0_0

/-- The reciprocal degrees: one over the maximum of the last column and one. (`%21`.) -/
def invDegArr (x0 : FVec Ideal S200000x12 .f32) (x1 : IVec S2x3200000 32) : FVec Ideal S200000x1 .f32 :=
  Host.divf (broadcastInDim S200000x1 ![] bcast_S_S200000x1 (constant S_ .f32 0x3F800000#32))
    (maximumf (extractStridedSlice S200000x1 ![0, 12] (aggDeg x0 x1) slices_S200000x13_S200000x1_0_12)
      (broadcastInDim S200000x1 ![] bcast_S_S200000x1 (constant S_ .f32 0x3F800000#32)))

/-- The aggregated projections. (`%33`.) -/
def agg2 (P : FVec Ideal S200000x32 .f32) (x1 : IVec S2x3200000 32) : FVec Ideal S200000x32 .f32 :=
  Host.scatterAdd scatter_S200000x32_S3200000x1_S3200000x32_1_0_0_1
    (broadcastInDim S200000x32 ![] bcast_S_S200000x32 (constant S_ .f32 0x00000000#32)) (dstArr x1)
    (Host.gather gather_S200000x32_S3200000x1_S3200000x32_1_0_n_n_0_1_132 P (srcArr x1))

/-- At the extended reals the host's accumulating scatter is the exact sum of the landing updates, whatever the operands. -/
theorem scatterAdd_eq {s si u : Shape} {w : ℕ} (d : ScatterDims s si u) (x : FVec Ideal s .f32) (idx : IVec si w)
    (upd : FVec Ideal u .f32) : Host.scatterAdd d x idx upd = Ideal.hostScatterAdd d x idx upd := rfl

/-- The updates of the first scatter-add: the gathered inputs with a column of ones appended. -/
abbrev upd1 (x0 : FVec Ideal S200000x12 .f32) (x1 : IVec S2x3200000 32) : FVec Ideal S3200000x13 .f32 :=
  concatenate S3200000x13 1
    [⟨S3200000x12, Host.gather gather_S200000x12_S3200000x1_S3200000x12_1_0_n_n_0_1_112 x0 (srcArr x1)⟩,
     ⟨S3200000x1, broadcastInDim S3200000x1 ![] bcast_S_S3200000x1 (constant S_ .f32 0x3F800000#32)⟩]
    concatenates_S3200000x12_S3200000x1_S3200000x13_d1

/-- The `[N, 13]` array at `(r, k)`: the sum of the updates' column `k` over the edges landing on row `r` (the zeros it is
    added into contribute nothing). -/
theorem aggDeg_apply (x0 : FVec Ideal S200000x12 .f32) (x1 : IVec S2x3200000 32) (r : Fin 200000) (k : Fin 13) :
    aggDeg x0 x1 (ix2 r k)
      = ∑ e : Fin 3200000, if dstOf x1 e = (r.val : ℤ) then upd1 x0 x1 (ix2 e k) else 0 := by
  unfold aggDeg
  rw [scatterAdd_eq]
  have hd : scatter_S200000x13_S3200000x1_S3200000x13_1_0_0_1
      = Cert.LibSegRows.rowScatter 200000 13 3200000 scatter_S200000x13_S3200000x1_S3200000x13_1_0_0_1_wf := rfl
  rw [hd, Cert.LibSegRows.rowScatterAdd_apply]
  rw [broadcastInDim_scalar_apply, constant_apply, Ideal.ofBits_zero_f32, zero_add]
  unfold dstOf
  rfl

/-- The updates at a column below 12: the input of the edge's source node. -/
theorem upd1_left (x0 : FVec Ideal S200000x12 .f32) (x1 : IVec S2x3200000 32) (e : Fin 3200000) (f : Fin 12)
    (k : Fin 13) (hk : k.val = f.val) : upd1 x0 x1 (ix2 e k) = x0 (ix2 (nodeOf x1 e) f) := by
  have hg : gather_S200000x12_S3200000x1_S3200000x12_1_0_n_n_0_1_112
      = Cert.LibSegRows.rowGather 200000 12 3200000 gather_S200000x12_S3200000x1_S3200000x12_1_0_n_n_0_1_112_wf := rfl
  refine (concatenate_pair_apply_left (t := S3200000x13) (s₁ := S3200000x12) (s₂ := S3200000x1) _ _ _ _ (ix2 e k) rfl
    (ix2 e f) (fun b => ?_)).trans ?_
  · match b with
    | ⟨0, _⟩ => rfl
    | ⟨1, _⟩ => exact hk.symm
  · rw [hg, Cert.LibSegRows.rowGather_apply (by decide)]
    rfl

/-- The updates at column 12: one. -/
theorem upd1_right (x0 : FVec Ideal S200000x12 .f32) (x1 : IVec S2x3200000 32) (e : Fin 3200000) :
    upd1 x0 x1 (ix2 e (12 : Fin 13)) = 1 := by
  refine (concatenate_pair_apply_right (t := S3200000x13) (s₁ := S3200000x12) (s₂ := S3200000x1) _ _ _ _
    (ix2 e (12 : Fin 13)) rfl rfl (ix2 e (0 : Fin 1)) (fun b hb => ?_) ?_).trans ?_
  · match b with
    | ⟨0, _⟩ => rfl
    | ⟨1, _⟩ => exact absurd rfl hb
  · rfl
  · rw [broadcastInDim_scalar_apply, constant_apply, Ideal.ofBits_one_f32]

/-- The last column of the `[N, 13]` array: the number of edges landing on the row. -/
theorem degCol_apply (x0 : FVec Ideal S200000x12 .f32) (x1 : IVec S2x3200000 32) (r : Fin 200000) :
    aggDeg x0 x1 (ix2 r (12 : Fin 13)) = Cert.Sage.segSum (dstOf x1) (fun _ => (1 : EReal)) r := by
  rw [aggDeg_apply]
  unfold Cert.Sage.segSum
  refine Finset.sum_congr rfl fun e _ => ?_
  rw [upd1_right]

theorem agg1_apply (x0 : FVec Ideal S200000x12 .f32) (x1 : IVec S2x3200000 32) (r : Fin 200000) (f : Fin 12) :
    agg1 x0 x1 (ix2 r f) = Cert.Sage.segSum (dstOf x1) (fun e => x0 (ix2 (nodeOf x1 e) f)) r := by
  unfold agg1
  rw [slice2_axis1_apply 0 _ _ r f (⟨f.val, by have := f.isLt; omega⟩ : Fin 13) (Nat.zero_add _).symm, aggDeg_apply]
  unfold Cert.Sage.segSum
  refine Finset.sum_congr rfl fun e _ => ?_
  rw [upd1_left x0 x1 e f (⟨f.val, by have := f.isLt; omega⟩ : Fin 13) rfl]

theorem invDegArr_apply (x0 : FVec Ideal S200000x12 .f32) (x1 : IVec S2x3200000 32) (r : Fin 200000) :
    invDegArr x0 x1 (ix2 r (0 : Fin 1)) = Cert.Sage.invDeg (dstOf x1) r := by
  unfold invDegArr Cert.Sage.invDeg Cert.Sage.dmax
  rw [hostDivf_apply, maximumf_apply, broadcastInDim_scalar_apply, constant_apply, Ideal.ofBits_one_f32]
  rw [slice2_axis1_apply 12 _ _ r (0 : Fin 1) (12 : Fin 13) rfl, degCol_apply]

theorem agg2_apply (P : FVec Ideal S200000x32 .f32) (x1 : IVec S2x3200000 32) (r : Fin 200000) (j : Fin 32) :
    agg2 P x1 (ix2 r j) = Cert.Sage.segSum (dstOf x1) (fun e => P (ix2 (nodeOf x1 e) j)) r := by
  unfold agg2
  rw [scatterAdd_eq]
  have hd : scatter_S200000x32_S3200000x1_S3200000x32_1_0_0_1
      = Cert.LibSegRows.rowScatter 200000 32 3200000 scatter_S200000x32_S3200000x1_S3200000x32_1_0_0_1_wf := rfl
  have hg : gather_S200000x32_S3200000x1_S3200000x32_1_0_n_n_0_1_132
      = Cert.LibSegRows.rowGather 200000 32 3200000 gather_S200000x32_S3200000x1_S3200000x32_1_0_n_n_0_1_132_wf := rfl
  rw [hd, Cert.LibSegRows.rowScatterAdd_apply, broadcastInDim_scalar_apply, constant_apply, Ideal.ofBits_zero_f32, zero_add]
  unfold Cert.Sage.segSum
  refine Finset.sum_congr rfl fun e _ => ?_
  rw [hg, Cert.LibSegRows.rowGather_apply (by decide)]
  unfold dstOf nodeOf
  rfl

/-- A length-64 vector reshaped to a `[1, 64]` row, read at `(0, k)`. (`%22`.) -/
theorem row64_apply (x : FVec Ideal S64 .f32) (k : Fin 64) :
    shapeCast S1x64 x shapeCasts_S64_S1x64 (ix2 (0 : Fin 1) k) = x (ix1 k) := by
  exact shapeCast_a_1a_apply x _ 0 k

/-- A length-32 vector reshaped to a `[1, 32]` row. (`%34`.) -/
theorem row32_apply (x : FVec Ideal S32 .f32) (j : Fin 32) :
    shapeCast S1x32 x shapeCasts_S32_S1x32 (ix2 (0 : Fin 1) j) = x (ix1 j) := by
  exact shapeCast_a_1a_apply x _ 0 j

/-- A length-2 vector reshaped to a `[1, 2]` row. (`%35`.) -/
theorem row2_apply (x : FVec Ideal S2 .f32) (o : Fin 2) :
    shapeCast S1x2 x shapeCasts_S2_S1x2 (ix2 (0 : Fin 1) o) = x (ix1 o) := by
  exact shapeCast_a_1a_apply x _ 0 o

end Cert.KernelIdeal.HostSide

end
-- ==== Proof.KernelValue.lean ====
/-
  The idealized kernel's buffers at each boundary of its run, as functions of the argument arrays.

  After the first stretch of host operations: the aggregated inputs, the reciprocal degrees and the first bias as a row.
  After the first kernel: its two result arrays hold, on every row, the first layer and its projection (every row is in
  some block, and each block is written once).  After the second stretch: the aggregated projections and the other two
  biases as rows.  After the second kernel: the result array holds the second layer and the classifier on every row.
-/
import proofs.«151622_j87789131530773_2_alg».proof.Proof.KernelArrays
import proofs.«151622_j87789131530773_2_alg».proof.Proof.KernelCover
import proofs.«151622_j87789131530773_2_alg».proof.Proof.KernelHost
import Idealize.ShloMosaic.Lib.StableHlo.Run

set_option maxRecDepth 16384

noncomputable section

namespace Cert.KernelIdeal.Val

open Cert.KernelIdeal Cert.KernelIdeal.Gen Cert.KernelIdeal.Arr Cert.KernelIdeal.Cover Cert.KernelIdeal.HostSide
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-! ## After the first stretch of host operations -/

set_option maxHeartbeats 4000000 in
theorem V1_v16 (c : Dev nD) : (V1 m ρ c main_v16 : S200000x12.Idx → EReal)
    = agg1 (m ((c : Thread nD τ).loc main_arg0)) (m ((c : Thread nD τ).loc main_arg1)) := by
  show StableHlo.after hostOps0 (W0 m ρ c) (Proc.devRef .tc main_v16) = _
  after_results_simp <;> rfl

set_option maxHeartbeats 4000000 in
theorem V1_v21 (c : Dev nD) : (V1 m ρ c main_v21 : S200000x1.Idx → EReal)
    = invDegArr (m ((c : Thread nD τ).loc main_arg0)) (m ((c : Thread nD τ).loc main_arg1)) := by
  show StableHlo.after hostOps0 (W0 m ρ c) (Proc.devRef .tc main_v21) = _
  after_results_simp <;> rfl

theorem V1_v22 (c : Dev nD) : (V1 m ρ c main_v22 : S1x64.Idx → EReal)
    = shapeCast S1x64 (m ((c : Thread nD τ).loc main_arg3)) Facts₀.shapeCasts_S64_S1x64 := by
  show StableHlo.after hostOps0 (W0 m ρ c) (Proc.devRef .tc main_v22) = _
  after_results_simp <;> rfl

theorem V1_arg0 (c : Dev nD) : (V1 m ρ c main_arg0 : S200000x12.Idx → EReal) = m ((c : Thread nD τ).loc main_arg0) := by
  show StableHlo.after hostOps0 (W0 m ρ c) (Proc.devRef .tc main_arg0) = _
  after_results

theorem V1_arg2 (c : Dev nD) : (V1 m ρ c main_arg2 : S12x64.Idx → EReal) = m ((c : Thread nD τ).loc main_arg2) := by
  show StableHlo.after hostOps0 (W0 m ρ c) (Proc.devRef .tc main_arg2) = _
  after_results

theorem V1_arg4 (c : Dev nD) : (V1 m ρ c main_arg4 : S12x64.Idx → EReal) = m ((c : Thread nD τ).loc main_arg4) := by
  show StableHlo.after hostOps0 (W0 m ρ c) (Proc.devRef .tc main_arg4) = _
  after_results

theorem V1_arg5 (c : Dev nD) : (V1 m ρ c main_arg5 : S64x32.Idx → EReal) = m ((c : Thread nD τ).loc main_arg5) := by
  show StableHlo.after hostOps0 (W0 m ρ c) (Proc.devRef .tc main_arg5) = _
  after_results

theorem W1_v1 (c : Dev nD) : (W1 m ρ c (Proc.devRef .tc main_v1) : S3200000.Idx → BitVec 32)
    = srcFlat (m ((c : Thread nD τ).loc main_arg1)) := by
  show StableHlo.after hostOps0 (W0 m ρ c) (Proc.devRef .tc main_v1) = _
  after_results_simp <;> rfl

theorem W1_v3 (c : Dev nD) : (W1 m ρ c (Proc.devRef .tc main_v3) : S3200000.Idx → BitVec 32)
    = shapeCast _ (extractStridedSlice S1x3200000 ![1, 0] (m ((c : Thread nD τ).loc main_arg1)) Facts₀.slices_S2x3200000_S1x3200000_1_0)
        Facts₀.shapeCasts_S1x3200000_S3200000 := by
  show StableHlo.after hostOps0 (W0 m ρ c) (Proc.devRef .tc main_v3) = _
  after_results_simp <;> rfl

/-! ## After the first kernel -/

/-- The first layer of the whole network, as the first kernel leaves it. -/
abbrev hidOf (x0 : S200000x12.Idx → EReal) (x1 : IVec S2x3200000 32) (x2 : S12x64.Idx → EReal) (x3 : S64.Idx → EReal)
    (x4 : S12x64.Idx → EReal) : S200000x64.Idx → EReal :=
  hidArr (agg1 x0 x1) (invDegArr x0 x1) x0 x2 (shapeCast S1x64 x3 Facts₀.shapeCasts_S64_S1x64) x4

/-- Its projection through the second layer's neighbour weights. -/
abbrev projOf (x0 : S200000x12.Idx → EReal) (x1 : IVec S2x3200000 32) (x2 : S12x64.Idx → EReal) (x3 : S64.Idx → EReal)
    (x4 : S12x64.Idx → EReal) (x5 : S64x32.Idx → EReal) : S200000x32.Idx → EReal :=
  projArr (agg1 x0 x1) (invDegArr x0 x1) x0 x2 (shapeCast S1x64 x3 Facts₀.shapeCasts_S64_S1x64) x4 x5

theorem W2_hid (c : Dev nD) : (W2 m ρ c (Proc.devRef .tc main_v23_0) : S200000x64.Idx → EReal)
    = hidOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 7).trans ?_
  refine ((dat0 (V1 m ρ) c).arrAt_eq_of_cover 7 _ (fun t _ => flushed_hid (V1 m ρ) c t) cover0_7).trans ?_
  rw [V1_v16, V1_v21, V1_arg0, V1_arg2, V1_v22, V1_arg4]

theorem W2_proj (c : Dev nD) : (W2 m ρ c (Proc.devRef .tc main_v23_1) : S200000x32.Idx → EReal)
    = projOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 8).trans ?_
  refine ((dat0 (V1 m ρ) c).arrAt_eq_of_cover 8 _ (fun t _ => flushed_proj (V1 m ρ) c t) cover0_8).trans ?_
  rw [V1_v16, V1_v21, V1_arg0, V1_arg2, V1_v22, V1_arg4, V1_arg5]

/-- The edge lists and the reciprocal degrees pass through the first kernel untouched. -/
theorem W2_v1 (c : Dev nD) : (W2 m ρ c (Proc.devRef .tc main_v1) : S3200000.Idx → BitVec 32)
    = srcFlat (m ((c : Thread nD τ).loc main_arg1)) :=
  (W2_of_ne m ρ c main_v1 (by decide)).trans (W1_v1 m ρ c)

theorem W2_v3 (c : Dev nD) : (W2 m ρ c (Proc.devRef .tc main_v3) : S3200000.Idx → BitVec 32)
    = shapeCast _ (extractStridedSlice S1x3200000 ![1, 0] (m ((c : Thread nD τ).loc main_arg1)) Facts₀.slices_S2x3200000_S1x3200000_1_0)
        Facts₀.shapeCasts_S1x3200000_S3200000 :=
  (W2_of_ne m ρ c main_v3 (by decide)).trans (W1_v3 m ρ c)

theorem W2_v21 (c : Dev nD) : (W2 m ρ c (Proc.devRef .tc main_v21) : S200000x1.Idx → EReal)
    = invDegArr (m ((c : Thread nD τ).loc main_arg0)) (m ((c : Thread nD τ).loc main_arg1)) :=
  (W2_arr m ρ c 1).trans (((dat0 (V1 m ρ) c).arrAt_in 1 rfl _).trans ((A_eq0 (V1 m ρ) c 1).trans (V1_v21 m ρ c)))

/-- The arguments the second kernel reads pass through everything before it untouched. -/
theorem W2_arg6 (c : Dev nD) : (W2 m ρ c (Proc.devRef .tc main_arg6) : S32.Idx → EReal) = m ((c : Thread nD τ).loc main_arg6) :=
  (W2_of_ne m ρ c main_arg6 (by decide)).trans (by
    show StableHlo.after hostOps0 (W0 m ρ c) (Proc.devRef .tc main_arg6) = _
    after_results)

theorem W2_arg7 (c : Dev nD) : (W2 m ρ c (Proc.devRef .tc main_arg7) : S64x32.Idx → EReal) = m ((c : Thread nD τ).loc main_arg7) :=
  (W2_of_ne m ρ c main_arg7 (by decide)).trans (by
    show StableHlo.after hostOps0 (W0 m ρ c) (Proc.devRef .tc main_arg7) = _
    after_results)

theorem W2_arg8 (c : Dev nD) : (W2 m ρ c (Proc.devRef .tc main_arg8) : S32x2.Idx → EReal) = m ((c : Thread nD τ).loc main_arg8) :=
  (W2_of_ne m ρ c main_arg8 (by decide)).trans (by
    show StableHlo.after hostOps0 (W0 m ρ c) (Proc.devRef .tc main_arg8) = _
    after_results)

theorem W2_arg9 (c : Dev nD) : (W2 m ρ c (Proc.devRef .tc main_arg9) : S2.Idx → EReal) = m ((c : Thread nD τ).loc main_arg9) :=
  (W2_of_ne m ρ c main_arg9 (by decide)).trans (by
    show StableHlo.after hostOps0 (W0 m ρ c) (Proc.devRef .tc main_arg9) = _
    after_results)

/-! ## After the second stretch of host operations -/

set_option maxHeartbeats 4000000 in
theorem V3_v33 (c : Dev nD) : (V3 m ρ c main_v33 : S200000x32.Idx → EReal)
    = agg2 (projOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
        (m ((c : Thread nD τ).loc main_arg1)) := by
  show StableHlo.after hostOps1 (W2 m ρ c) (Proc.devRef .tc main_v33) = _
  after_results_simp
  rw [W2_v1, W2_v3, W2_proj]
  rfl

theorem V3_v21 (c : Dev nD) : (V3 m ρ c main_v21 : S200000x1.Idx → EReal)
    = invDegArr (m ((c : Thread nD τ).loc main_arg0)) (m ((c : Thread nD τ).loc main_arg1)) :=
  (show StableHlo.after hostOps1 (W2 m ρ c) (Proc.devRef .tc main_v21) = W2 m ρ c (Proc.devRef .tc main_v21) by after_results).trans
    (W2_v21 m ρ c)

theorem V3_v23_0 (c : Dev nD) : (V3 m ρ c main_v23_0 : S200000x64.Idx → EReal)
    = hidOf (m ((c : Thread nD τ).loc main_arg0)) (m ((c : Thread nD τ).loc main_arg1)) (m ((c : Thread nD τ).loc main_arg2))
        (m ((c : Thread nD τ).loc main_arg3)) (m ((c : Thread nD τ).loc main_arg4)) :=
  (show StableHlo.after hostOps1 (W2 m ρ c) (Proc.devRef .tc main_v23_0) = W2 m ρ c (Proc.devRef .tc main_v23_0) by after_results).trans
    (W2_hid m ρ c)

theorem V3_arg7 (c : Dev nD) : (V3 m ρ c main_arg7 : S64x32.Idx → EReal) = m ((c : Thread nD τ).loc main_arg7) :=
  (show StableHlo.after hostOps1 (W2 m ρ c) (Proc.devRef .tc main_arg7) = W2 m ρ c (Proc.devRef .tc main_arg7) by after_results).trans
    (W2_arg7 m ρ c)

theorem V3_arg8 (c : Dev nD) : (V3 m ρ c main_arg8 : S32x2.Idx → EReal) = m ((c : Thread nD τ).loc main_arg8) :=
  (show StableHlo.after hostOps1 (W2 m ρ c) (Proc.devRef .tc main_arg8) = W2 m ρ c (Proc.devRef .tc main_arg8) by after_results).trans
    (W2_arg8 m ρ c)

theorem V3_v34 (c : Dev nD) : (V3 m ρ c main_v34 : S1x32.Idx → EReal)
    = shapeCast S1x32 (m ((c : Thread nD τ).loc main_arg6)) Facts₀.shapeCasts_S32_S1x32 := by
  show StableHlo.after hostOps1 (W2 m ρ c) (Proc.devRef .tc main_v34) = _
  after_results_simp
  rw [W2_arg6]
  rfl

theorem V3_v35 (c : Dev nD) : (V3 m ρ c main_v35 : S1x2.Idx → EReal)
    = shapeCast S1x2 (m ((c : Thread nD τ).loc main_arg9)) Facts₀.shapeCasts_S2_S1x2 := by
  show StableHlo.after hostOps1 (W2 m ρ c) (Proc.devRef .tc main_v35) = _
  after_results_simp
  rw [W2_arg9]
  rfl

/-! ## After the second kernel -/

/-- The result array as the second kernel leaves it, a function of the ten argument arrays. -/
abbrev outOf (x0 : S200000x12.Idx → EReal) (x1 : IVec S2x3200000 32) (x2 : S12x64.Idx → EReal) (x3 : S64.Idx → EReal)
    (x4 : S12x64.Idx → EReal) (x5 : S64x32.Idx → EReal) (x6 : S32.Idx → EReal) (x7 : S64x32.Idx → EReal)
    (x8 : S32x2.Idx → EReal) (x9 : S2.Idx → EReal) : S200000x2.Idx → EReal :=
  outArr (agg2 (projOf x0 x1 x2 x3 x4 x5) x1) (invDegArr x0 x1) (hidOf x0 x1 x2 x3 x4) x7
    (shapeCast S1x32 x6 Facts₀.shapeCasts_S32_S1x32) x8 (shapeCast S1x2 x9 Facts₀.shapeCasts_S2_S1x2)

theorem W4_out (c : Dev nD) : (W4 m ρ c (Proc.devRef .tc main_v36) : S200000x2.Idx → EReal)
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W4_arr m ρ c 7).trans ?_
  refine ((dat1 (V3 m ρ) c).arrAt_eq_of_cover 7 _ (fun t _ => flushed_out (V3 m ρ) c t) cover1_7).trans ?_
  rw [V3_v33, V3_v21, V3_v23_0, V3_arg7, V3_v34, V3_arg8, V3_v35]

end Cert.KernelIdeal.Val

end
-- ==== Proof.KernelSpec.lean ====
/-
  The idealized kernel's result array, read at a row and a class, is the network in the arrangement with reciprocal degrees
  and the early projection.

  The array the second kernel leaves is a function of the aggregated projections, the reciprocal degrees and the hidden
  features; each of these, read at a row and a column, is the corresponding quantity of the specification: an aggregate
  is a sum over the edges landing on the row, a gathered row is the row of the edge's source node, a bias row read at
  `(0, j)` is the bias at `j`.
-/
import proofs.«151622_j87789131530773_2_alg».proof.Proof.KernelValue

set_option maxRecDepth 16384

noncomputable section

namespace Cert.KernelIdeal.Val

open Cert.KernelIdeal Cert.KernelIdeal.Arr Cert.KernelIdeal.HostSide
open Idealize.ShloMosaic Idealize.ShloMosaic.ValueIdx

variable (x0 : S200000x12.Idx → EReal) (x1 : IVec S2x3200000 32) (x2 : S12x64.Idx → EReal) (x3 : S64.Idx → EReal)
  (x4 : S12x64.Idx → EReal) (x5 : S64x32.Idx → EReal) (x6 : S32.Idx → EReal) (x7 : S64x32.Idx → EReal)
  (x8 : S32x2.Idx → EReal) (x9 : S2.Idx → EReal)

/-- The hidden features the first kernel leaves are the specification's first layer. -/
theorem hidOf_apply (n : Fin 200000) (k : Fin 64) :
    hidOf x0 x1 x2 x3 x4 (ix2 n k)
      = Cert.Sage.hidK (dstOf x1) (nodeOf x1) (fun r f => x0 (ix2 r f)) (fun f k => x2 (ix2 f k)) (fun k => x3 (ix1 k))
          (fun f k => x4 (ix2 f k)) n k := by
  show hidAt (agg1 x0 x1) (invDegArr x0 x1) x0 x2 (shapeCast S1x64 x3 Facts₀.shapeCasts_S64_S1x64) x4 n k = _
  unfold hidAt Cert.Sage.hidK
  rw [invDegArr_apply, row64_apply]
  simp only [agg1_apply]

/-- The projections the first kernel leaves are the specification's projections of that first layer. -/
theorem projOf_apply (n : Fin 200000) (j : Fin 32) :
    projOf x0 x1 x2 x3 x4 x5 (ix2 n j)
      = Cert.Sage.proj (Cert.Sage.hidK (dstOf x1) (nodeOf x1) (fun r f => x0 (ix2 r f)) (fun f k => x2 (ix2 f k))
          (fun k => x3 (ix1 k)) (fun f k => x4 (ix2 f k))) (fun k j => x5 (ix2 k j)) n j := by
  show projAt (agg1 x0 x1) (invDegArr x0 x1) x0 x2 (shapeCast S1x64 x3 Facts₀.shapeCasts_S64_S1x64) x4 x5 n j = _
  unfold projAt Cert.Sage.proj
  exact Finset.sum_congr rfl fun k _ => congrArg (· * x5 (ix2 k j)) (hidOf_apply x0 x1 x2 x3 x4 n k)

/-- THE RESULT ARRAY AT `(r, o)` is the network in the arrangement with reciprocal degrees and the early projection. -/
theorem outOf_apply (r : Fin 200000) (o : Fin 2) :
    outOf x0 x1 x2 x3 x4 x5 x6 x7 x8 x9 (ix2 r o)
      = Cert.Sage.outKer (dstOf x1) (nodeOf x1) (fun r f => x0 (ix2 r f)) (fun f k => x2 (ix2 f k)) (fun k => x3 (ix1 k))
          (fun f k => x4 (ix2 f k)) (fun k j => x5 (ix2 k j)) (fun j => x6 (ix1 j)) (fun k j => x7 (ix2 k j))
          (fun j o => x8 (ix2 j o)) (fun o => x9 (ix1 o)) r o := by
  show outAt (agg2 (projOf x0 x1 x2 x3 x4 x5) x1) (invDegArr x0 x1) (hidOf x0 x1 x2 x3 x4) x7
      (shapeCast S1x32 x6 Facts₀.shapeCasts_S32_S1x32) x8 (shapeCast S1x2 x9 Facts₀.shapeCasts_S2_S1x2) r o = _
  unfold outAt Cert.Sage.outKer Cert.Sage.cls Cert.Sage.hid2K
  rw [invDegArr_apply, row2_apply]
  simp only [agg2_apply, row32_apply, hidOf_apply, projOf_apply]

end Cert.KernelIdeal.Val

end
-- ==== Proof.RefValue.lean ====
/-
  The reference program computes the network in the reference's arrangement.

  Its edge lists are two columns cut from the `[2, E]` integer argument: row 0, with a negative entry moved up by the
  number of nodes, feeds the gathers (which clamp it to a node), and row 1 feeds the scatter-adds (which drop an entry that
  is no row).  Read at a row and a column, every scatter-add is a sum over the edges landing on the row, every gather reads
  the edge's node, and the matrix products are sums over the contracted coordinate.
-/
import proofs.«151622_j87789131530773_2_alg».proof.Proof.Gen.ReferenceIdeal.Read
import proofs.«151622_j87789131530773_2_alg».proof.Proof.Spec
import proofs.«151622_j87789131530773_2_alg».proof.Proof.LibSegRows
import Idealize.ShloMosaic.Lib.IdealHost

set_option maxRecDepth 16384

noncomputable section

namespace Cert.RefSide

open Cert.ReferenceIdeal Cert.ReferenceIdeal.Gen Cert.ReferenceIdeal.Read
open Idealize.ShloMosaic Idealize.ShloMosaic.ValueIdx

/-- The destination row of edge `e`: the second row of the edge list, read signed. -/
def dstOf (x1 : (⟨S2x3200000, .i32⟩ : BufTy).Contents (Elt Ideal)) (e : Fin 3200000) : ℤ :=
  (val_main_v12 (F := Ideal) x1 (ix2 e (0 : Fin 1))).toInt

/-- The source node of edge `e`: the first row of the edge list, a negative entry moved up by the number of nodes, clamped. -/
def nodeOf (x1 : (⟨S2x3200000, .i32⟩ : BufTy).Contents (Elt Ideal)) (e : Fin 3200000) : Fin 200000 :=
  Cert.LibSegRows.clampRow (N := 200000) (by decide) (val_main_v9 (F := Ideal) x1) e

/-! ## The first aggregation: the neighbours' inputs summed per row, and the degree -/

/-- At the extended reals the host's accumulating scatter is the exact sum, whatever its operands. -/
theorem scatterAdd_eq {s si su : Shape} {w : ℕ} (d : ScatterDims s si su) (x : FVec Ideal s .f32) (idx : IVec si w)
    (upd : FVec Ideal su .f32) : Host.scatterAdd (F := Ideal) d x idx upd = Ideal.hostScatterAdd d x idx upd := rfl

/-- The first gather reads the input row of the edge's node. -/
theorem v10_at (x0 : (⟨S200000x12, .f32⟩ : BufTy).Contents (Elt Ideal)) (x1 : (⟨S2x3200000, .i32⟩ : BufTy).Contents (Elt Ideal)) (e : Fin 3200000) (c : Fin 12) :
    val_main_v10 (F := Ideal) x0 x1 (ix2 e c) = x0 (ix2 (nodeOf x1 e) c) := by
  unfold val_main_v10 nodeOf
  exact Cert.LibSegRows.rowGather_apply (by decide) _ x0 (val_main_v9 (F := Ideal) x1) e c

/-- The first row scatter-add, started from zero, is the sum of the gathered inputs over the edges landing on the row. -/
theorem v13_at (x0 : (⟨S200000x12, .f32⟩ : BufTy).Contents (Elt Ideal)) (x1 : (⟨S2x3200000, .i32⟩ : BufTy).Contents (Elt Ideal)) (r : Fin 200000) (c : Fin 12) :
    val_main_v13 (F := Ideal) x0 x1 (ix2 r c)
      = Cert.Sage.segSum (dstOf x1) (fun e => x0 (ix2 (nodeOf x1 e) c)) r := by
  unfold val_main_v13
  rw [scatterAdd_eq]
  have hd : scatter_S200000x12_S3200000x1_S3200000x12_1_0_0_1
      = Cert.LibSegRows.rowScatter 200000 12 3200000 scatter_S200000x12_S3200000x1_S3200000x12_1_0_0_1_wf := rfl
  rw [hd, Cert.LibSegRows.rowScatterAdd_apply, val_main_v11_apply, val_main_cst_apply, Ideal.ofBits_def,
    Ideal.ofBits_zero_f32, zero_add]
  unfold Cert.Sage.segSum dstOf
  refine Finset.sum_congr rfl fun e _ => ?_
  rw [v10_at]

/-- The flat scatter-add of ones, started from zero, counts the edges landing on the row. -/
theorem v17_at (x1 : (⟨S2x3200000, .i32⟩ : BufTy).Contents (Elt Ideal)) (r : Fin 200000) :
    val_main_v17 (F := Ideal) x1 (ix1 r) = Cert.Sage.segSum (dstOf x1) (fun _ => (1 : EReal)) r := by
  unfold val_main_v17
  rw [scatterAdd_eq]
  have hd : scatter_S200000_S3200000x1_S3200000_n_0_0_1
      = Cert.LibSegRows.flatScatter 200000 3200000 scatter_S200000_S3200000x1_S3200000_n_0_0_1_wf := rfl
  have hi : val_main_v16 (F := Ideal) x1 = val_main_v12 (F := Ideal) x1 := rfl
  rw [hd, hi, Cert.LibSegRows.flatScatterAdd_apply, val_main_v15_apply, val_main_cst_2_apply, Ideal.ofBits_def,
    Ideal.ofBits_zero_f32, zero_add]
  unfold Cert.Sage.segSum dstOf
  refine Finset.sum_congr rfl fun e _ => ?_
  rw [val_main_v14_apply, val_main_cst_1_apply, Ideal.ofBits_def, Ideal.ofBits_one_f32]

/-- The degree, but at least one. -/
theorem v19_at (x1 : (⟨S2x3200000, .i32⟩ : BufTy).Contents (Elt Ideal)) (r : Fin 200000) :
    val_main_v19 (F := Ideal) x1 (ix1 r) = Cert.Sage.dmax (dstOf x1) r := by
  unfold Cert.Sage.dmax
  rw [val_main_v19_apply, v17_at, val_main_v18_apply, val_main_cst_3_apply, Ideal.ofBits_def, Ideal.ofBits_one_f32,
    Ideal.maximumf_def]

/-- The degree spread along the twelve input columns. -/
theorem v21_at (x1 : (⟨S2x3200000, .i32⟩ : BufTy).Contents (Elt Ideal)) (r : Fin 200000) (c : Fin 12) :
    val_main_v21 (F := Ideal) x1 (ix2 r c) = Cert.Sage.dmax (dstOf x1) r := by
  have h : idx_main_v20 (idx_main_v21 (ix2 r c)) = ix1 r :=
    funext fun a => Fin.ext (by match a with | ⟨0, _⟩ => rfl)
  rw [val_main_v21_apply, val_main_v20_apply, h, v19_at]

/-- The mean of the neighbours' inputs. -/
theorem v22_at (x0 : (⟨S200000x12, .f32⟩ : BufTy).Contents (Elt Ideal)) (x1 : (⟨S2x3200000, .i32⟩ : BufTy).Contents (Elt Ideal)) (r : Fin 200000) (f : Fin 12) :
    val_main_v22 (F := Ideal) x0 x1 (ix2 r f)
      = Ideal.div (Cert.Sage.segSum (dstOf x1) (fun e => x0 (ix2 (nodeOf x1 e) f)) r) (Cert.Sage.dmax (dstOf x1) r) := by
  rw [val_main_v22_apply, v13_at, v21_at, Ideal.hostDivf_def]

/-! ## The first layer -/

/-- The means times the neighbour weights. -/
theorem v23_at (x0 : (⟨S200000x12, .f32⟩ : BufTy).Contents (Elt Ideal)) (x1 : (⟨S2x3200000, .i32⟩ : BufTy).Contents (Elt Ideal)) (x2 : (⟨S12x64, .f32⟩ : BufTy).Contents (Elt Ideal)) (r : Fin 200000) (k : Fin 64) :
    val_main_v23 (F := Ideal) x0 x1 x2 (ix2 r k)
      = ∑ f : Fin 12, Ideal.div (Cert.Sage.segSum (dstOf x1) (fun e => x0 (ix2 (nodeOf x1 e) f)) r)
          (Cert.Sage.dmax (dstOf x1) r) * x2 (ix2 f k) := by
  rw [val_main_v23_apply]
  refine Finset.sum_congr rfl fun f _ => ?_
  have hl : lidx_main_v23 (ix2 r k) f = ix2 r f :=
    funext fun a => Fin.ext (by match a with | ⟨0, _⟩ => rfl | ⟨1, _⟩ => rfl)
  have hr : ridx_main_v23 (ix2 r k) f = ix2 f k :=
    funext fun a => Fin.ext (by match a with | ⟨0, _⟩ => rfl | ⟨1, _⟩ => rfl)
  rw [hl, hr, v22_at]

/-- The bias spread along the rows. -/
theorem v25_at (x3 : (⟨S64, .f32⟩ : BufTy).Contents (Elt Ideal)) (r : Fin 200000) (k : Fin 64) :
    val_main_v25 (F := Ideal) x3 (ix2 r k) = x3 (ix1 k) := by
  have h : idx_main_v24 (idx_main_v25 (ix2 r k)) = ix1 k :=
    funext fun a => Fin.ext (by match a with | ⟨0, _⟩ => rfl)
  rw [val_main_v25_apply, val_main_v24_apply, h]

/-- The row's own inputs times the self weights. -/
theorem v27_at (x0 : (⟨S200000x12, .f32⟩ : BufTy).Contents (Elt Ideal)) (x4 : (⟨S12x64, .f32⟩ : BufTy).Contents (Elt Ideal)) (r : Fin 200000) (k : Fin 64) :
    val_main_v27 (F := Ideal) x0 x4 (ix2 r k) = ∑ f : Fin 12, x0 (ix2 r f) * x4 (ix2 f k) := by
  rw [val_main_v27_apply]
  refine Finset.sum_congr rfl fun f _ => ?_
  have hl : lidx_main_v27 (ix2 r k) f = ix2 r f :=
    funext fun a => Fin.ext (by match a with | ⟨0, _⟩ => rfl | ⟨1, _⟩ => rfl)
  have hr : ridx_main_v27 (ix2 r k) f = ix2 f k :=
    funext fun a => Fin.ext (by match a with | ⟨0, _⟩ => rfl | ⟨1, _⟩ => rfl)
  rw [hl, hr]

/-- THE FIRST LAYER: the rectified stage is the specification's hidden layer. -/
theorem hidden_eq (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) (r : Fin 200000) (k : Fin 64) :
    val_main_v29 (F := Ideal) x0 x1 x2 x3 x4 (ix2 r k)
      = Cert.Sage.hid (dstOf x1) (nodeOf x1) (fun r f => x0 (ix2 r f)) (fun f k => x2 (ix2 f k)) (fun k => x3 (ix1 k))
          (fun f k => x4 (ix2 f k)) r k := by
  unfold Cert.Sage.hid
  rw [val_main_v29_apply, val_main_v28_apply, val_main_v26_apply, v23_at, v25_at, v27_at, val_main_call0_v0_apply,
    val_main_call0_cst_apply, Ideal.ofBits_def, Ideal.ofBits_zero_f32, Ideal.maximumf_def, Ideal.addf_def, Ideal.addf_def]

/-! ## The second aggregation: the neighbours' hidden features summed per row -/

/-- The second gather reads the hidden row of the edge's node. -/
theorem v36_at (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) (e : Fin 3200000) (k : Fin 64) :
    val_main_v36 (F := Ideal) x0 x1 x2 x3 x4 (ix2 e k) = val_main_v29 (F := Ideal) x0 x1 x2 x3 x4 (ix2 (nodeOf x1 e) k) := by
  have hi : val_main_v35 (F := Ideal) x1 = val_main_v9 (F := Ideal) x1 := rfl
  unfold val_main_v36 nodeOf
  rw [hi]
  exact Cert.LibSegRows.rowGather_apply (by decide) _ (val_main_v29 (F := Ideal) x0 x1 x2 x3 x4) (val_main_v9 (F := Ideal) x1) e k

/-- The second row scatter-add, started from zero, is the sum of the gathered hidden features over the edges landing on the row. -/
theorem v39_at (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) (r : Fin 200000) (k : Fin 64) :
    val_main_v39 (F := Ideal) x0 x1 x2 x3 x4 (ix2 r k)
      = Cert.Sage.segSum (dstOf x1) (fun e => val_main_v29 (F := Ideal) x0 x1 x2 x3 x4 (ix2 (nodeOf x1 e) k)) r := by
  unfold val_main_v39
  rw [scatterAdd_eq]
  have hd : scatter_S200000x64_S3200000x1_S3200000x64_1_0_0_1
      = Cert.LibSegRows.rowScatter 200000 64 3200000 scatter_S200000x64_S3200000x1_S3200000x64_1_0_0_1_wf := rfl
  have hi : val_main_v38 (F := Ideal) x1 = val_main_v12 (F := Ideal) x1 := rfl
  rw [hd, hi, Cert.LibSegRows.rowScatterAdd_apply, val_main_v37_apply, val_main_cst_6_apply, Ideal.ofBits_def,
    Ideal.ofBits_zero_f32, zero_add]
  unfold Cert.Sage.segSum dstOf
  refine Finset.sum_congr rfl fun e _ => ?_
  rw [v36_at]

/-- The second count of the edges landing on the row. -/
theorem v43_at (x1 : (⟨S2x3200000, .i32⟩ : BufTy).Contents (Elt Ideal)) (r : Fin 200000) :
    val_main_v43 (F := Ideal) x1 (ix1 r) = Cert.Sage.segSum (dstOf x1) (fun _ => (1 : EReal)) r := by
  unfold val_main_v43
  rw [scatterAdd_eq]
  have hd : scatter_S200000_S3200000x1_S3200000_n_0_0_1
      = Cert.LibSegRows.flatScatter 200000 3200000 scatter_S200000_S3200000x1_S3200000_n_0_0_1_wf := rfl
  have hi : val_main_v42 (F := Ideal) x1 = val_main_v12 (F := Ideal) x1 := rfl
  rw [hd, hi, Cert.LibSegRows.flatScatterAdd_apply, val_main_v41_apply, val_main_cst_8_apply, Ideal.ofBits_def,
    Ideal.ofBits_zero_f32, zero_add]
  unfold Cert.Sage.segSum dstOf
  refine Finset.sum_congr rfl fun e _ => ?_
  rw [val_main_v40_apply, val_main_cst_7_apply, Ideal.ofBits_def, Ideal.ofBits_one_f32]

/-- The degree, but at least one, spread along the sixty-four hidden columns. -/
theorem v47_at (x1 : (⟨S2x3200000, .i32⟩ : BufTy).Contents (Elt Ideal)) (r : Fin 200000) (k : Fin 64) :
    val_main_v47 (F := Ideal) x1 (ix2 r k) = Cert.Sage.dmax (dstOf x1) r := by
  have h : idx_main_v46 (idx_main_v47 (ix2 r k)) = ix1 r :=
    funext fun a => Fin.ext (by match a with | ⟨0, _⟩ => rfl)
  unfold Cert.Sage.dmax
  rw [val_main_v47_apply, val_main_v46_apply, h, val_main_v45_apply, v43_at, val_main_v44_apply, val_main_cst_9_apply,
    Ideal.ofBits_def, Ideal.ofBits_one_f32, Ideal.maximumf_def]

/-- The mean of the neighbours' hidden features. -/
theorem v48_at (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) (r : Fin 200000) (k : Fin 64) :
    val_main_v48 (F := Ideal) x0 x1 x2 x3 x4 (ix2 r k)
      = Ideal.div (Cert.Sage.segSum (dstOf x1) (fun e => val_main_v29 (F := Ideal) x0 x1 x2 x3 x4 (ix2 (nodeOf x1 e) k)) r)
          (Cert.Sage.dmax (dstOf x1) r) := by
  rw [val_main_v48_apply, v39_at, v47_at, Ideal.hostDivf_def]

/-! ## The second layer -/

/-- The means times the neighbour weights. -/
theorem v49_at (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) (x5 : (⟨S64x32, .f32⟩ : BufTy).Contents (Elt Ideal)) (r : Fin 200000) (j : Fin 32) :
    val_main_v49 (F := Ideal) x0 x1 x2 x3 x4 x5 (ix2 r j)
      = ∑ k : Fin 64, Ideal.div (Cert.Sage.segSum (dstOf x1) (fun e => val_main_v29 (F := Ideal) x0 x1 x2 x3 x4 (ix2 (nodeOf x1 e) k)) r)
          (Cert.Sage.dmax (dstOf x1) r) * x5 (ix2 k j) := by
  rw [val_main_v49_apply]
  refine Finset.sum_congr rfl fun k _ => ?_
  have hl : lidx_main_v49 (ix2 r j) k = ix2 r k :=
    funext fun a => Fin.ext (by match a with | ⟨0, _⟩ => rfl | ⟨1, _⟩ => rfl)
  have hr : ridx_main_v49 (ix2 r j) k = ix2 k j :=
    funext fun a => Fin.ext (by match a with | ⟨0, _⟩ => rfl | ⟨1, _⟩ => rfl)
  rw [hl, hr, v48_at]

/-- The bias spread along the rows. -/
theorem v51_at (x6 : (⟨S32, .f32⟩ : BufTy).Contents (Elt Ideal)) (r : Fin 200000) (j : Fin 32) :
    val_main_v51 (F := Ideal) x6 (ix2 r j) = x6 (ix1 j) := by
  have h : idx_main_v50 (idx_main_v51 (ix2 r j)) = ix1 j :=
    funext fun a => Fin.ext (by match a with | ⟨0, _⟩ => rfl)
  rw [val_main_v51_apply, val_main_v50_apply, h]

/-- The row's own hidden features times the self weights. -/
theorem v53_at (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) (x7 : (⟨S64x32, .f32⟩ : BufTy).Contents (Elt Ideal)) (r : Fin 200000) (j : Fin 32) :
    val_main_v53 (F := Ideal) x0 x1 x2 x3 x4 x7 (ix2 r j)
      = ∑ k : Fin 64, val_main_v29 (F := Ideal) x0 x1 x2 x3 x4 (ix2 r k) * x7 (ix2 k j) := by
  rw [val_main_v53_apply]
  refine Finset.sum_congr rfl fun k _ => ?_
  have hl : lidx_main_v53 (ix2 r j) k = ix2 r k :=
    funext fun a => Fin.ext (by match a with | ⟨0, _⟩ => rfl | ⟨1, _⟩ => rfl)
  have hr : ridx_main_v53 (ix2 r j) k = ix2 k j :=
    funext fun a => Fin.ext (by match a with | ⟨0, _⟩ => rfl | ⟨1, _⟩ => rfl)
  rw [hl, hr]

/-- THE SECOND LAYER over the first stage's values: the rectified stage is the specification's second layer applied to the
    first rectified stage read by row and column. -/
theorem hidden2_eq (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (r : Fin 200000) (j : Fin 32) :
    val_main_v55 (F := Ideal) x0 x1 x2 x3 x4 x5 x6 x7 (ix2 r j)
      = Cert.Sage.hid2 (dstOf x1) (nodeOf x1) (fun r k => val_main_v29 (F := Ideal) x0 x1 x2 x3 x4 (ix2 r k)) (fun k j => x5 (ix2 k j))
          (fun j => x6 (ix1 j)) (fun k j => x7 (ix2 k j)) r j := by
  unfold Cert.Sage.hid2
  rw [val_main_v55_apply, val_main_v54_apply, val_main_v52_apply, v49_at, v51_at, v53_at, val_main_call1_v0_apply,
    val_main_call1_cst_apply, Ideal.ofBits_def, Ideal.ofBits_zero_f32, Ideal.maximumf_def, Ideal.addf_def, Ideal.addf_def]

/-! ## The classifier -/

/-- The second layer's values times the classifier's weights. -/
theorem v56_at (x0 : (⟨S200000x12, .f32⟩ : BufTy).Contents (Elt Ideal)) (x1 : (⟨S2x3200000, .i32⟩ : BufTy).Contents (Elt Ideal)) (x2 : (⟨S12x64, .f32⟩ : BufTy).Contents (Elt Ideal)) (x3 : (⟨S64, .f32⟩ : BufTy).Contents (Elt Ideal)) (x4 : (⟨S12x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x2, .f32⟩ : BufTy).Contents (Elt Ideal)) (r : Fin 200000) (o : Fin 2) :
    val_main_v56 (F := Ideal) x0 x1 x2 x3 x4 x5 x6 x7 x8 (ix2 r o)
      = ∑ j : Fin 32, val_main_v55 (F := Ideal) x0 x1 x2 x3 x4 x5 x6 x7 (ix2 r j) * x8 (ix2 j o) := by
  rw [val_main_v56_apply]
  refine Finset.sum_congr rfl fun j _ => ?_
  have hl : lidx_main_v56 (ix2 r o) j = ix2 r j :=
    funext fun a => Fin.ext (by match a with | ⟨0, _⟩ => rfl | ⟨1, _⟩ => rfl)
  have hr : ridx_main_v56 (ix2 r o) j = ix2 j o :=
    funext fun a => Fin.ext (by match a with | ⟨0, _⟩ => rfl | ⟨1, _⟩ => rfl)
  rw [hl, hr]

/-- The classifier's bias spread along the rows. -/
theorem v58_at (x9 : (⟨S2, .f32⟩ : BufTy).Contents (Elt Ideal)) (r : Fin 200000) (o : Fin 2) :
    val_main_v58 (F := Ideal) x9 (ix2 r o) = x9 (ix1 o) := by
  have h : idx_main_v57 (idx_main_v58 (ix2 r o)) = ix1 o :=
    funext fun a => Fin.ext (by match a with | ⟨0, _⟩ => rfl)
  rw [val_main_v58_apply, val_main_v57_apply, h]

/-- THE REFERENCE'S RESULT read at a row and a column is the specification's network in the reference's arrangement. -/
theorem ref_eq (x0 : (⟨S200000x12, .f32⟩ : BufTy).Contents (Elt Ideal)) (x1 : (⟨S2x3200000, .i32⟩ : BufTy).Contents (Elt Ideal))
    (x2 : (⟨S12x64, .f32⟩ : BufTy).Contents (Elt Ideal)) (x3 : (⟨S64, .f32⟩ : BufTy).Contents (Elt Ideal))
    (x4 : (⟨S12x64, .f32⟩ : BufTy).Contents (Elt Ideal)) (x5 : (⟨S64x32, .f32⟩ : BufTy).Contents (Elt Ideal))
    (x6 : (⟨S32, .f32⟩ : BufTy).Contents (Elt Ideal)) (x7 : (⟨S64x32, .f32⟩ : BufTy).Contents (Elt Ideal))
    (x8 : (⟨S32x2, .f32⟩ : BufTy).Contents (Elt Ideal)) (x9 : (⟨S2, .f32⟩ : BufTy).Contents (Elt Ideal))
    (r : Fin 200000) (o : Fin 2) :
    val_main_v59 (F := Ideal) x0 x1 x2 x3 x4 x5 x6 x7 x8 x9 (ix2 r o)
      = Cert.Sage.outRef (dstOf x1) (nodeOf x1) (fun r f => x0 (ix2 r f)) (fun f k => x2 (ix2 f k)) (fun k => x3 (ix1 k))
          (fun f k => x4 (ix2 f k)) (fun k j => x5 (ix2 k j)) (fun j => x6 (ix1 j)) (fun k j => x7 (ix2 k j))
          (fun j o => x8 (ix2 j o)) (fun o => x9 (ix1 o)) r o := by
  have hH : (fun (r : Fin 200000) (k : Fin 64) => val_main_v29 (F := Ideal) x0 x1 x2 x3 x4 (ix2 r k))
      = Cert.Sage.hid (dstOf x1) (nodeOf x1) (fun r f => x0 (ix2 r f)) (fun f k => x2 (ix2 f k)) (fun k => x3 (ix1 k))
          (fun f k => x4 (ix2 f k)) :=
    funext fun r => funext fun k => hidden_eq x0 x1 x2 x3 x4 r k
  unfold Cert.Sage.outRef Cert.Sage.cls
  rw [val_main_v59_apply, v56_at, v58_at, Ideal.addf_def, ← hH]
  refine congrArg (· + x9 (ix1 o)) (Finset.sum_congr rfl fun j _ => ?_)
  rw [hidden2_eq]

end Cert.RefSide

end
-- ==== Proof.lean ====
/-
  The certificate of a two-layer mean-aggregation graph network with a linear classifier: a kernel program against its
  reference, on the extended reals.

  Both programs build, from the `[2, E]` integer argument, a column of destination rows and a column of source nodes, gather
  node features along the edges and add them into their destination rows.  The reference does this twice on the full hidden
  width, divides each aggregate by `max degree 1` and multiplies by the layer's weights.  The kernel program obtains the
  degree as a thirteenth column of the first aggregation, keeps the reciprocal of `max degree 1`, and in the second layer
  aggregates the hidden features already multiplied by the neighbour weights; its two kernels each run over 50 blocks of
  4000 rows and write every row of their results once.

  * The three frames are the generated ones (the reference's is its generated run with the result dropped).
  * The kernel's idealization rewrote nothing, so it preserves the kernel by definition.
  * The two idealized programs agree: the kernel's result array is the network in the arrangement with reciprocals and the
    early projection, the reference's is the network in the reference's arrangement, over the same edge functions; on finite
    inputs the two arrangements are equal (a division by a real number at least one is a multiplication by its reciprocal;
    the multiplication by the neighbour weights moves inside the sum over the edges because the hidden features are finite).
-/
import proofs.«151622_j87789131530773_2_alg».proof.Defs
import proofs.«151622_j87789131530773_2_alg».proof.Proof.Gen.Kernel
import proofs.«151622_j87789131530773_2_alg».proof.Proof.Gen.Kernel.Skeleton
import proofs.«151622_j87789131530773_2_alg».proof.Proof.Gen.Kernel.Launch
import proofs.«151622_j87789131530773_2_alg».proof.Proof.Gen.Kernel.Points
import proofs.«151622_j87789131530773_2_alg».proof.Proof.Gen.Kernel.Frame
import proofs.«151622_j87789131530773_2_alg».proof.Proof.Gen.KernelIdeal
import proofs.«151622_j87789131530773_2_alg».proof.Proof.Gen.KernelIdeal.Skeleton
import proofs.«151622_j87789131530773_2_alg».proof.Proof.Gen.KernelIdeal.Launch
import proofs.«151622_j87789131530773_2_alg».proof.Proof.Gen.KernelIdeal.Points
import proofs.«151622_j87789131530773_2_alg».proof.Proof.Gen.KernelIdeal.Frame
import proofs.«151622_j87789131530773_2_alg».proof.Proof.Gen.ReferenceIdeal
import proofs.«151622_j87789131530773_2_alg».proof.Proof.Gen.Pre_finite_inputs
import proofs.«151622_j87789131530773_2_alg».proof.Proof.Gen.ReferenceIdeal.Run
import proofs.«151622_j87789131530773_2_alg».proof.Proof.Gen.ReferenceIdeal.Read
import proofs.«151622_j87789131530773_2_alg».proof.Proof.Law
import proofs.«151622_j87789131530773_2_alg».proof.Proof.Finite
import proofs.«151622_j87789131530773_2_alg».proof.Proof.KernelRun
import proofs.«151622_j87789131530773_2_alg».proof.Proof.KernelSpec
import proofs.«151622_j87789131530773_2_alg».proof.Proof.RefValue
import Idealize.ShloMosaic.Adequacy
import Idealize.ShloMosaic.Init

set_option maxRecDepth 16384

noncomputable section

namespace Cert.Proof

open Idealize.ShloMosaic Idealize.SL.Sem Idealize.ShloMosaic.ValueIdx

/-! ## The two programs read the same edges -/

/-- The destination row of an edge is the same function of the edge list in both programs. -/
theorem dst_eq (x1 : IVec Cert.KernelIdeal.S2x3200000 32) :
    Cert.RefSide.dstOf x1 = Cert.KernelIdeal.HostSide.dstOf x1 := rfl

/-- So is its source node. -/
theorem node_eq (x1 : IVec Cert.KernelIdeal.S2x3200000 32) :
    Cert.RefSide.nodeOf x1 = Cert.KernelIdeal.HostSide.nodeOf x1 := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the kernel's function of the arguments: the kernel by its run, the
    reference because its own function of the same arguments is equal to it on finite inputs. -/
theorem algebraic : Cert.algebraic_KernelIdeal_ReferenceIdeal := by
  intro m ρ m' ρ' hpre hagree
  refine ⟨fun c => Cert.KernelIdeal.Val.outOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Val.W4_out m ρ c), (h c).2⟩) (Cert.KernelIdeal.Out.run_out m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    funext i
    obtain ⟨r, o, rfl⟩ : ∃ (r : Fin 200000) (o : Fin 2), i = ix2 r o := ⟨i 0, i 1, eq_ix2 i⟩
    obtain ⟨h0, h2, h3, h4, h5⟩ := Cert.FiniteIn.finite_of_pre _ _ _ _ _ _ _ _ _ _ (hpre c)
    rw [Cert.RefSide.ref_eq, dst_eq, node_eq]
    refine Eq.trans ?_ (Cert.KernelIdeal.Val.outOf_apply _ _ _ _ _ _ _ _ _ _ r o).symm
    exact (Cert.Sage.outKer_eq_outRef _ _ _ _ _ _ _ _ _ _ _ (fun r f => h0 _) (fun f k => h2 _) (fun k => h3 _)
      (fun f k => h4 _) (fun k j => h5 _) r o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
